-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x256 : Shape := ⟨2, ![512, 256]⟩
abbrev S256 : Shape := ⟨1, ![256]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S256 .f32) (main_arg5 : FVec F S512x512 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S512x256 .f32) (main_arg2 : FVec F S256 .f32) (main_arg3 : FVec F S512x256 .f32) (main_arg4 : FVec F S256 .f32) (main_arg5 : FVec F S512x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8x2048x512 : Shape := ⟨3, ![8, 2048, 512]⟩
abbrev S512x256 : Shape := ⟨2, ![512, 256]⟩
abbrev S256 : Shape := ⟨1, ![256]⟩
abbrev S512x512 : Shape := ⟨2, ![512, 512]⟩
abbrev S512 : Shape := ⟨1, ![512]⟩
abbrev S16384x512 : Shape := ⟨2, ![16384, 512]⟩
abbrev S1x256 : Shape := ⟨2, ![1, 256]⟩
abbrev S1x512 : Shape := ⟨2, ![1, 512]⟩
abbrev S16384x256 : Shape := ⟨2, ![16384, 256]⟩
abbrev S1024x512 : Shape := ⟨2, ![1024, 512]⟩
abbrev S1024x256 : Shape := ⟨2, ![1024, 256]⟩
abbrev S8x2048x256 : Shape := ⟨3, ![8, 2048, 256]⟩
abbrev S8x128x256 : Shape := ⟨3, ![8, 128, 256]⟩
abbrev S8x128x512 : Shape := ⟨3, ![8, 128, 512]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 18
  | .vmem => 23
  | .smem => 0
  | _ => 0

abbrev bufTy : (tb : Table) → Fin (tcTables nBuf tb) → BufTy
  | .hbm, ⟨0, _⟩ => ⟨S8x2048x512, .f32⟩
  | .hbm, ⟨1, _⟩ => ⟨S512x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x512, .f32⟩
  | .hbm, ⟨6, _⟩ => ⟨S512, .f32⟩
  | .hbm, ⟨7, _⟩ => ⟨S16384x512, .f32⟩
  | .hbm, ⟨8, _⟩ => ⟨S1x256, .f32⟩
  | .hbm, ⟨9, _⟩ => ⟨S1x256, .f32⟩
  | .hbm, ⟨10, _⟩ => ⟨S1x512, .f32⟩
  | .hbm, ⟨11, _⟩ => ⟨S16384x256, .bf16⟩
  | .hbm, ⟨12, _⟩ => ⟨S16384x256, .bf16⟩
  | .hbm, ⟨13, _⟩ => ⟨S16384x512, .bf16⟩
  | .hbm, ⟨14, _⟩ => ⟨S8x2048x256, .bf16⟩
  | .hbm, ⟨15, _⟩ => ⟨S8x2048x256, .bf16⟩
  | .hbm, ⟨16, _⟩ => ⟨S8x2048x512, .bf16⟩
  | .hbm, ⟨17, _⟩ => ⟨S8x2048x512, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x512, .f32⟩
  | .local _ .vmem, ⟨7, _⟩ => ⟨S1x512, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x512, .bf16⟩
  | .local _ .vmem, ⟨13, _⟩ => ⟨S1024x512, .bf16⟩
  | .local _ .vmem, ⟨14, _⟩ => ⟨S8x128x256, .bf16⟩
  | .local _ .vmem, ⟨15, _⟩ => ⟨S8x128x256, .bf16⟩
  | .local _ .vmem, ⟨16, _⟩ => ⟨S8x2048x256, .bf16⟩
  | .local _ .vmem, ⟨17, _⟩ => ⟨S8x2048x512, .bf16⟩
  | .local _ .vmem, ⟨18, _⟩ => ⟨S8x128x512, .f32⟩
  | .local _ .vmem, ⟨19, _⟩ => ⟨S8x128x512, .f32⟩
  | .local _ .vmem, ⟨20, _⟩ => ⟨S8x128x512, .f32⟩
  | .local _ .vmem, ⟨21, _⟩ => ⟨S8x128x512, .f32⟩
  | .local _ .vmem, ⟨22, _⟩ => ⟨S8x128x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k1_mult1 (k1_t1 : Fin k1_t1_loop.trips) : BitVec 32 :=
  let c0_i32_16 : BitVec 32 := 0#32
  let c0_i32 : BitVec 32 := 0#32
  let c1_i32 : BitVec 32 := 1#32
  let arg7 : BitVec 32 := Scf.iv c0_i32 c1_i32 k1_t1
  let c1_i32_15 : BitVec 32 := 1#32
  let v11 : BitVec 32 := Scalar.muli arg7 c1_i32_15
  let v12 : BitVec 32 := Scalar.addi c0_i32_16 v11
  let c128_i32 : BitVec 32 := 128#32
  let v13 : BitVec 32 := Scalar.muli v12 c128_i32
  v13
def k1_off1 (k1_t1 : Fin k1_t1_loop.trips) : Fin 3 → Nat :=
  let c0_17 : Index := 0#32
  let c0_i32_16 : BitVec 32 := 0#32
  let c0_i32 : BitVec 32 := 0#32
  let c1_i32 : BitVec 32 := 1#32
  let arg7 : BitVec 32 := Scf.iv c0_i32 c1_i32 k1_t1
  let c1_i32_15 : BitVec 32 := 1#32
  let v11 : BitVec 32 := Scalar.muli arg7 c1_i32_15
  let v12 : BitVec 32 := Scalar.addi c0_i32_16 v11
  let c128_i32 : BitVec 32 := 128#32
  let v13 : BitVec 32 := Scalar.muli v12 c128_i32
  let v14 : BitVec 32 := v13
  let v15 : Index := Scalar.indexCast v14
  let c0_18 : Index := 0#32
  ![0, v15.toNat, 0]
def k1_off2 (k1_t1 : Fin k1_t1_loop.trips) : Fin 3 → Nat :=
  let c0_19 : Index := 0#32
  let c0_i32_16 : BitVec 32 := 0#32
  let c0_i32 : BitVec 32 := 0#32
  let c1_i32 : BitVec 32 := 1#32
  let arg7 : BitVec 32 := Scf.iv c0_i32 c1_i32 k1_t1
  let c1_i32_15 : BitVec 32 := 1#32
  let v11 : BitVec 32 := Scalar.muli arg7 c1_i32_15
  let v12 : BitVec 32 := Scalar.addi c0_i32_16 v11
  let c128_i32 : BitVec 32 := 128#32
  let v13 : BitVec 32 := Scalar.muli v12 c128_i32
  let v14 : BitVec 32 := v13
  let v18 : Index := Scalar.indexCast v14
  let c0_20 : Index := 0#32
  ![0, v18.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x2048x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x2048x512_S16384x512 : S8x2048x512.ShapeCasts S16384x512
  shapeCasts_S256_S1x256 : S256.ShapeCasts S1x256
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  packedbf16_S1024x512_S1024x512_0_0 : (Rect.unit (s := S1024x512) ![0, 0] S1024x512.size inb_S1024x512_S1024x512_0_0).PackedRows (EltTy.packing .bf16)
  shapeCasts_S16384x256_S8x2048x256 : S16384x256.ShapeCasts S8x2048x256
  shapeCasts_S16384x512_S8x2048x512 : S16384x512.ShapeCasts S8x2048x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  reduces_S8x128x128_S128x128 : S8x128x128.Reduces [0] S128x128
  shapeCasts_S128x128_S1x128x128 : S128x128.ShapeCasts S1x128x128
  broadcasts_S1x128x128_S8x128x128 : S1x128x128.Broadcasts S8x128x128
  dot_S1024x512_S512x256_S1024x256_1_0_0_1_n_n_wf : DotDims.WF S1024x512 S512x256 S1024x256 [1] [0] [0] [1] [] []
  dot_S1024x512_S512x512_S1024x512_1_0_0_1_n_n_wf : DotDims.WF S1024x512 S512x512 S1024x512 [1] [0] [0] [1] [] []
  dot_S8x128x256_S8x128x256_S8x128x128_2_2_1_1_0_0_wf : DotDims.WF S8x128x256 S8x128x256 S8x128x128 [2] [2] [1] [1] [0] [0]
  dot_S8x128x128_S8x128x512_S8x128x512_2_1_1_2_0_0_wf : DotDims.WF S8x128x128 S8x128x512 S8x128x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .bf16 = 32 ∨ (Rect.block (s := S16384x256) S1024x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S16384x256.size a
  hwx0_8 : ∀ i : grid0.Coords, EltTy.bits .bf16 = 32 ∨ (Rect.block (s := S16384x256) S1024x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .bf16 = 32 ∨ (Rect.block (s := S16384x512) S1024x512.size (cc0_transform_9 i) (hinb0_9 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S8x128x256.size a ≤ S8x2048x256.size a
  k1_off2_inb : ∀ k1_t1 : Fin k1_t1_loop.trips, ∀ a, (k1_off2 k1_t1) a + S8x128x512.size a ≤ S8x2048x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x256.size a ≤ S8x2048x256.size a
  hwx1_0 : ∀ i : grid1.Coords, EltTy.bits .bf16 = 32 ∨ (Rect.block (s := S8x2048x256) S8x128x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x2048x256.size a ≤ S8x2048x256.size a
  hwx1_1 : ∀ i : grid1.Coords, EltTy.bits .bf16 = 32 ∨ (Rect.block (s := S8x2048x256) S8x2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x2048x512.size a ≤ S8x2048x512.size a
  hwx1_2 : ∀ i : grid1.Coords, EltTy.bits .bf16 = 32 ∨ (Rect.block (s := S8x2048x512) S8x2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x512.size a ≤ S8x2048x512.size a
  hwx1_3 : ∀ i : grid1.Coords, EltTy.bits .f32 = 32 ∨ (Rect.block (s := S8x2048x512) S8x128x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128x512.size a ≤ S8x2048x512.size a
  hwx1_4 : ∀ i : grid1.Coords, EltTy.bits .f32 = 32 ∨ (Rect.block (s := S8x2048x512) S8x128x512.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S8x128x256_S8x128x256_S8x128x128_2_2_1_1_0_0 : DotDims S8x128x256 S8x128x256 S8x128x128 where
  lhsContracting := [2]
  rhsContracting := [2]
  lhsNonContracting := [1]
  rhsNonContracting := [1]
  lhsBatch := [0]
  rhsBatch := [0]
  wf := dot_S8x128x256_S8x128x256_S8x128x128_2_2_1_1_0_0_wf
def dot_S8x128x128_S8x128x512_S8x128x512_2_1_1_2_0_0 : DotDims S8x128x128 S8x128x512 S8x128x512 where
  lhsContracting := [2]
  rhsContracting := [1]
  lhsNonContracting := [1]
  rhsNonContracting := [2]
  lhsBatch := [0]
  rhsBatch := [0]
  wf := dot_S8x128x128_S8x128x512_S8x128x512_2_1_1_2_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S8x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S8x2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S8x128x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S8x128x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x256 : Shape := ⟨2, ![512, 256]⟩
abbrev S256 : Shape := ⟨1, ![256]⟩
abbrev S512x512 : Shape := ⟨2, ![512, 512]⟩
abbrev S512 : Shape := ⟨1, ![512]⟩
abbrev S8x2048x256 : Shape := ⟨3, ![8, 2048, 256]⟩
abbrev S1x1x256 : Shape := ⟨3, ![1, 1, 256]⟩
abbrev S1x1x512 : Shape := ⟨3, ![1, 1, 512]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x512, .f32⟩
  | .hbm, ⟨6, _⟩ => ⟨S512, .f32⟩
  | .hbm, ⟨7, _⟩ => ⟨S8x2048x256, .f32⟩
  | .hbm, ⟨8, _⟩ => ⟨S1x1x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S1x1x256, .f32⟩
  | .hbm, ⟨13, _⟩ => ⟨S8x2048x256, .f32⟩
  | .hbm, ⟨14, _⟩ => ⟨S8x2048x256, .f32⟩
  | .hbm, ⟨15, _⟩ => ⟨S8x2048x512, .f32⟩
  | .hbm, ⟨16, _⟩ => ⟨S1x1x512, .f32⟩
  | .hbm, ⟨17, _⟩ => ⟨S8x2048x512, .f32⟩
  | .hbm, ⟨18, _⟩ => ⟨S8x2048x512, .f32⟩
  | .hbm, ⟨19, _⟩ => ⟨S8x2048x2048, .f32⟩
  | .hbm, ⟨20, _⟩ => ⟨S_, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S1x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S2048x2048, .f32⟩
  | .hbm, ⟨31, _⟩ => ⟨S1x2048x2048, .f32⟩
  | .hbm, ⟨32, _⟩ => ⟨S8x2048x2048, .f32⟩
  | .hbm, ⟨33, _⟩ => ⟨S8x2048x2048, .f32⟩
  | .hbm, ⟨34, _⟩ => ⟨S8x2048x512, .f32⟩
  | .hbm, ⟨35, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x2048_S2048x2048_d0 : S8x2048x2048.ReducesTo [0] S2048x2048
  h_S_ : 0 < S_.numel
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  dot_S8x2048x512_S512x256_S8x2048x256_2_0_01_1_n_n_wf : DotDims.WF S8x2048x512 S512x256 S8x2048x256 [2] [0] [0, 1] [1] [] []
  dot_S8x2048x512_S512x512_S8x2048x512_2_0_01_1_n_n_wf : DotDims.WF S8x2048x512 S512x512 S8x2048x512 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf
def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  What the non-local block computes, as ONE function of its seven argument arrays over the extended reals.

  For inputs `X` of shape [8, 2048, 512] (batch, position, channel) and three per-position linear layers
  (`Wx, bx` and `Wy, by` into 256 channels, `Wo, bo` into 512):
    P = X·Wx + bx,  Q = X·Wy + by,  O = X·Wo + bo          (`projected`)
    score b l m = ∑ i, P b l i · Q b m i
    weight b l m = exp (score b l m − max over b' of score b' l m) / ∑ over b' of the same exponentials
                                                                  (a softmax over the BATCH axis: `softmax8`)
    result b l c = X b l c + ∑ m, weight b l m · O b m c          (`attend`)
  Every sum is a finite sum of extended reals, the maximum is a fold of `max` from the least element's bit pattern,
  and the quotient and the exponential are the extended-real ones. Nothing here mentions a program.
-/
import Idealize.ShloMosaic.PureOps.Ideal
import Idealize.ShloMosaic.Lib.ValueIdx

noncomputable section

namespace Cert.NonLocal

open Idealize.ShloMosaic Idealize.ShloMosaic.ValueIdx
open scoped BigOperators

/-- Arrays of extended reals of rank one, two and three. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The per-position linear layer at batch `b`, position `l`, output channel `i`: the row of `X` times the
    column of `W`, plus the bias. -/
def linear {n : Nat} (X : A3 8 2048 512) (W : A2 512 n) (β : A1 n) (b : Fin 8) (l : Fin 2048) (i : Fin n) : EReal :=
  (∑ c : Fin 512, X (ix3 b l c) * W (ix2 c i)) + β (ix1 i)

/-- The linear layer as an array. -/
def projected {n : Nat} (X : A3 8 2048 512) (W : A2 512 n) (β : A1 n) : A3 8 2048 n :=
  fun j => linear X W β (j 0) (j 1) (j 2)

/-- The largest of eight extended reals, folded from the bit pattern of `-∞`. -/
def max8 (s : Fin 8 → EReal) : EReal :=
  (Finset.univ : Finset (Fin 8)).fold max (Ideal.ofBits .f32 0xFF800000#32) s

/-- The softmax of eight extended reals at `b`: the exponential of the distance to the largest, over the sum of
    those exponentials. -/
def softmax8 (s : Fin 8 → EReal) (b : Fin 8) : EReal :=
  Ideal.div (Ideal.exp (s b - max8 s)) (∑ b' : Fin 8, Ideal.exp (s b' - max8 s))

/-- The score of position `l` against position `m` in batch `b`. -/
def score (P Q : A3 8 2048 256) (b : Fin 8) (l m : Fin 2048) : EReal :=
  ∑ i : Fin 256, P (ix3 b l i) * Q (ix3 b m i)

/-- The block's result at batch `b`, position `l`, channel `c` from the three projections and the residual:
    the residual plus the positions' values weighted by the batch-axis softmax of the scores. -/
def attend (P Q : A3 8 2048 256) (O X : A3 8 2048 512) (b : Fin 8) (l : Fin 2048) (c : Fin 512) : EReal :=
  X (ix3 b l c) + ∑ m : Fin 2048, softmax8 (fun b' => score P Q b' l m) b * O (ix3 b m c)

/-- The whole block. -/
def result (X : A3 8 2048 512) (Wx : A2 512 256) (bx : A1 256) (Wy : A2 512 256) (by' : A1 256)
    (Wo : A2 512 512) (bo : A1 512) : A3 8 2048 512 :=
  fun j => attend (projected X Wx bx) (projected X Wy by') (projected X Wo bo) X (j 0) (j 1) (j 2)

theorem projected_ix3 {n : Nat} (X : A3 8 2048 512) (W : A2 512 n) (β : A1 n) (b : Fin 8) (l : Fin 2048) (i : Fin n) :
    projected X W β (ix3 b l i) = linear X W β b l i := rfl

end Cert.NonLocal

end
-- ==== Proof.RefBridge.lean ====
/-
  The reference program, read one result element at a time, computes the non-local block of the
  specification: each of its twenty-nine array operations is unfolded at an index until only the
  extended-real formula of that element remains.

  The route follows the data flow. The three linear layers are a contraction over the 512 input
  channels plus a bias that was broadcast over batch and position. The score is a contraction over the
  256 projected channels inside one batch. The softmax runs over the BATCH axis: its maximum is a fold of
  `max` over the eight batches started from the bit pattern of minus infinity, the further maximum with
  that same constant changes nothing because a fold of `max` is at least its starting value, the sum of
  exponentials starts from the constant zero, and the quotient is the extended-real division. The last
  contraction runs over the 2048 positions and the input is added back.
-/
import proofs.«149326_j8409545965719_2_alg».proof.Proof.Gen.ReferenceIdeal.Read
import proofs.«149326_j8409545965719_2_alg».proof.Proof.Spec
import Idealize.ShloMosaic.Lib.ValueIdx
import Idealize.ShloMosaic.PureOps.Ideal.Laws
import Idealize.ShloMosaic.PureOps.Reduce

noncomputable section

namespace Cert.NonLocal.Ref

open Cert.ReferenceIdeal Cert.ReferenceIdeal.Gen Cert.ReferenceIdeal.Read
open Idealize.ShloMosaic Idealize.ShloMosaic.ValueIdx
open scoped BigOperators

/-- The argument arrays of the reference, as arrays of extended reals. -/
abbrev ArrX := (⟨S8x2048x512, .f32⟩ : BufTy).Contents (Elt Ideal)
abbrev ArrW256 := (⟨S512x256, .f32⟩ : BufTy).Contents (Elt Ideal)
abbrev ArrB256 := (⟨S256, .f32⟩ : BufTy).Contents (Elt Ideal)
abbrev ArrW512 := (⟨S512x512, .f32⟩ : BufTy).Contents (Elt Ideal)
abbrev ArrB512 := (⟨S512, .f32⟩ : BufTy).Contents (Elt Ideal)

/-! ## Index bookkeeping

Each generated reading lemma names the operand index it reads through a function of the result index.
At a result index given by its coordinates these functions are again indices given by coordinates. -/

theorem lidx_v0 (b : Fin 8) (l : Fin 2048) (i : Fin 256) (k : Fin 512) :
    lidx_main_v0 (ix3 b l i) k = ix3 b l k :=
  funext fun a => Fin.ext (by match a with | ⟨0, _⟩ => rfl | ⟨1, _⟩ => rfl | ⟨2, _⟩ => rfl)
theorem ridx_v0 (b : Fin 8) (l : Fin 2048) (i : Fin 256) (k : Fin 512) :
    ridx_main_v0 (ix3 b l i) k = ix2 k i :=
  funext fun a => Fin.ext (by match a with | ⟨0, _⟩ => rfl | ⟨1, _⟩ => rfl)
theorem bidx_v2 (b : Fin 8) (l : Fin 2048) (i : Fin 256) :
    idx_main_v1 (idx_main_v2 (ix3 b l i)) = ix1 i :=
  funext fun a => Fin.ext (by match a with | ⟨0, _⟩ => rfl)

theorem lidx_v4 (b : Fin 8) (l : Fin 2048) (i : Fin 256) (k : Fin 512) :
    lidx_main_v4 (ix3 b l i) k = ix3 b l k :=
  funext fun a => Fin.ext (by match a with | ⟨0, _⟩ => rfl | ⟨1, _⟩ => rfl | ⟨2, _⟩ => rfl)
theorem ridx_v4 (b : Fin 8) (l : Fin 2048) (i : Fin 256) (k : Fin 512) :
    ridx_main_v4 (ix3 b l i) k = ix2 k i :=
  funext fun a => Fin.ext (by match a with | ⟨0, _⟩ => rfl | ⟨1, _⟩ => rfl)
theorem bidx_v6 (b : Fin 8) (l : Fin 2048) (i : Fin 256) :
    idx_main_v5 (idx_main_v6 (ix3 b l i)) = ix1 i :=
  funext fun a => Fin.ext (by match a with | ⟨0, _⟩ => rfl)

theorem lidx_v8 (b : Fin 8) (l : Fin 2048) (i : Fin 512) (k : Fin 512) :
    lidx_main_v8 (ix3 b l i) k = ix3 b l k :=
  funext fun a => Fin.ext (by match a with | ⟨0, _⟩ => rfl | ⟨1, _⟩ => rfl | ⟨2, _⟩ => rfl)
theorem ridx_v8 (b : Fin 8) (l : Fin 2048) (i : Fin 512) (k : Fin 512) :
    ridx_main_v8 (ix3 b l i) k = ix2 k i :=
  funext fun a => Fin.ext (by match a with | ⟨0, _⟩ => rfl | ⟨1, _⟩ => rfl)
theorem bidx_v10 (b : Fin 8) (l : Fin 2048) (i : Fin 512) :
    idx_main_v9 (idx_main_v10 (ix3 b l i)) = ix1 i :=
  funext fun a => Fin.ext (by match a with | ⟨0, _⟩ => rfl)

/-! ## The three linear layers -/

/-- The first projection at (b, l, i): the row of the input times the column of the weight, plus the bias
    at channel `i` (the bias reaches every batch and position through its two broadcasts). -/
theorem proj_x (x0 : ArrX) (x1 : ArrW256) (x2 : ArrB256) (b : Fin 8) (l : Fin 2048) (i : Fin 256) :
    val_main_v3 (F := Ideal) x0 x1 x2 (ix3 b l i) = linear x0 x1 x2 b l i := by
  rw [val_main_v3_apply, val_main_v0_apply, val_main_v2_apply, val_main_v1_apply, Ideal.addf_def, bidx_v2]
  unfold linear
  refine congrArg (· + x2 (ix1 i)) (Finset.sum_congr rfl fun k _ => ?_)
  rw [lidx_v0, ridx_v0]

/-- The second projection, likewise. -/
theorem proj_y (x0 : ArrX) (x3 : ArrW256) (x4 : ArrB256) (b : Fin 8) (l : Fin 2048) (i : Fin 256) :
    val_main_v7 (F := Ideal) x0 x3 x4 (ix3 b l i) = linear x0 x3 x4 b l i := by
  rw [val_main_v7_apply, val_main_v4_apply, val_main_v6_apply, val_main_v5_apply, Ideal.addf_def, bidx_v6]
  unfold linear
  refine congrArg (· + x4 (ix1 i)) (Finset.sum_congr rfl fun k _ => ?_)
  rw [lidx_v4, ridx_v4]

/-- The third projection, into 512 channels. -/
theorem proj_o (x0 : ArrX) (x5 : ArrW512) (x6 : ArrB512) (b : Fin 8) (l : Fin 2048) (i : Fin 512) :
    val_main_v11 (F := Ideal) x0 x5 x6 (ix3 b l i) = linear x0 x5 x6 b l i := by
  rw [val_main_v11_apply, val_main_v8_apply, val_main_v10_apply, val_main_v9_apply, Ideal.addf_def, bidx_v10]
  unfold linear
  refine congrArg (· + x6 (ix1 i)) (Finset.sum_congr rfl fun k _ => ?_)
  rw [lidx_v8, ridx_v8]

/-! ## The scores -/

theorem lidx_v12 (b : Fin 8) (l m : Fin 2048) (k : Fin 256) :
    lidx_main_v12 (ix3 b l m) k = ix3 b l k :=
  funext fun a => Fin.ext (by match a with | ⟨0, _⟩ => rfl | ⟨1, _⟩ => rfl | ⟨2, _⟩ => rfl)
theorem ridx_v12 (b : Fin 8) (l m : Fin 2048) (k : Fin 256) :
    ridx_main_v12 (ix3 b l m) k = ix3 b m k :=
  funext fun a => Fin.ext (by match a with | ⟨0, _⟩ => rfl | ⟨1, _⟩ => rfl | ⟨2, _⟩ => rfl)

/-- The score array at (b, l, m): inside batch `b`, the first projection at position `l` against the second
    at position `m`, summed over the 256 projected channels. -/
theorem score_eq (x0 : ArrX) (x1 : ArrW256) (x2 : ArrB256) (x3 : ArrW256) (x4 : ArrB256)
    (b : Fin 8) (l m : Fin 2048) :
    val_main_v12 (F := Ideal) x0 x1 x2 x3 x4 (ix3 b l m)
      = score (projected x0 x1 x2) (projected x0 x3 x4) b l m := by
  rw [val_main_v12_apply]
  unfold score
  refine Finset.sum_congr rfl fun k _ => ?_
  rw [lidx_v12, ridx_v12, proj_x, proj_y, projected_ix3, projected_ix3]

/-! ## The maximum over the batch axis -/

/-- Removing the batch axis of an [8, 2048, 2048] array leaves a [2048, 2048] one: the shape fact under which
    the one-axis reading of a reduction names the index it reads. -/
theorem reduces_batch : S8x2048x2048.Reduces [0] S2048x2048 := by decide

/-- The index over (l, m) whose batch coordinate is `b` is (b, l, m). -/
theorem lift_batch (l m : Fin 2048) (b : Fin 8) :
    reduces_batch.lift (ix2 l m) b = ix3 b l m :=
  funext fun a => Fin.ext (by match a with | ⟨0, _⟩ => rfl | ⟨1, _⟩ => rfl | ⟨2, _⟩ => rfl)

/-- The reduction with `max` over the batch axis, at (l, m): the fold of `max` over the eight batches' scores,
    started from the constant minus infinity. The operation commutes and associates, so the order in which the
    program visits the eight indices does not matter. -/
theorem max_reduce_eq (x0 : ArrX) (x1 : ArrW256) (x2 : ArrB256) (x3 : ArrW256) (x4 : ArrB256) (l m : Fin 2048) :
    val_main_v13 (F := Ideal) x0 x1 x2 x3 x4 (ix2 l m)
      = max8 (fun b' => score (projected x0 x1 x2) (projected x0 x3 x4) b' l m) := by
  unfold val_main_v13
  refine (Host.reduce_eq_fold_single FloatOps.maximumf _ _ reducesTo_S8x2048x2048_S2048x2048_d0 reduces_batch h_S_
    (ix2 l m)).trans ?_
  show (Finset.univ : Finset (Fin 8)).fold max (Ideal.ofBits .f32 0xFF800000#32)
      (fun b' : Fin 8 => val_main_v12 (F := Ideal) x0 x1 x2 x3 x4 (reduces_batch.lift (ix2 l m) b')) = max8 _
  unfold max8
  refine congrArg (fun f => (Finset.univ : Finset (Fin 8)).fold max (Ideal.ofBits .f32 0xFF800000#32) f)
    (funext fun b' => ?_)
  rw [lift_batch, score_eq]

/-- The further maximum with the constant minus infinity changes nothing: a fold of `max` is never below the
    value it starts from, and it starts from that same constant. -/
theorem max_eq (x0 : ArrX) (x1 : ArrW256) (x2 : ArrB256) (x3 : ArrW256) (x4 : ArrB256) (l m : Fin 2048) :
    val_main_v15 (F := Ideal) x0 x1 x2 x3 x4 (ix2 l m)
      = max8 (fun b' => score (projected x0 x1 x2) (projected x0 x3 x4) b' l m) := by
  rw [val_main_v15_apply, val_main_v14_apply, val_main_cst_0_apply, Ideal.maximumf_def, Ideal.ofBits_def,
    max_reduce_eq]
  exact max_eq_right ((Finset.le_fold_max _).mpr (Or.inl le_rfl))

/-! ## The softmax over the batch axis -/

theorem midx_v17 (b : Fin 8) (l m : Fin 2048) :
    idx_main_v16 (idx_main_v17 (ix3 b l m)) = ix2 l m :=
  funext fun a => Fin.ext (by match a with | ⟨0, _⟩ => rfl | ⟨1, _⟩ => rfl)
theorem sidx_v20 (l m : Fin 2048) (k : Fin 8) :
    idx_main_v20 (ix2 l m) k = ix3 k l m :=
  funext fun a => Fin.ext (by match a with | ⟨0, _⟩ => rfl | ⟨1, _⟩ => rfl | ⟨2, _⟩ => rfl)
theorem didx_v22 (b : Fin 8) (l m : Fin 2048) :
    idx_main_v21 (idx_main_v22 (ix3 b l m)) = ix2 l m :=
  funext fun a => Fin.ext (by match a with | ⟨0, _⟩ => rfl | ⟨1, _⟩ => rfl)

/-- The exponentials at (b, l, m): the score's distance to the largest of the eight scores at (l, m), which the
    two broadcasts hand to every batch, then the extended-real exponential. -/
theorem exp_eq (x0 : ArrX) (x1 : ArrW256) (x2 : ArrB256) (x3 : ArrW256) (x4 : ArrB256) (b : Fin 8) (l m : Fin 2048) :
    val_main_v19 (F := Ideal) x0 x1 x2 x3 x4 (ix3 b l m)
      = Ideal.exp (score (projected x0 x1 x2) (projected x0 x3 x4) b l m
          - max8 (fun b' => score (projected x0 x1 x2) (projected x0 x3 x4) b' l m)) := by
  rw [val_main_v19_apply, Ideal.hostUnary_exp_def, val_main_v18_apply, Ideal.subf_def, val_main_v17_apply,
    val_main_v16_apply, midx_v17, max_eq, score_eq]

/-- The sum of the eight exponentials at (l, m); it starts from the constant zero. -/
theorem sum_eq (x0 : ArrX) (x1 : ArrW256) (x2 : ArrB256) (x3 : ArrW256) (x4 : ArrB256) (l m : Fin 2048) :
    val_main_v20 (F := Ideal) x0 x1 x2 x3 x4 (ix2 l m)
      = ∑ b' : Fin 8, Ideal.exp (score (projected x0 x1 x2) (projected x0 x3 x4) b' l m
          - max8 (fun b'' => score (projected x0 x1 x2) (projected x0 x3 x4) b'' l m)) := by
  rw [val_main_v20_apply, val_main_cst_1_apply, Ideal.ofBits_def, Ideal.ofBits_zero_f32, zero_add]
  refine Finset.sum_congr rfl fun k _ => ?_
  rw [sidx_v20, exp_eq]

/-- The weights at (b, l, m): the softmax, over the eight batches, of the scores at (l, m). -/
theorem softmax_eq (x0 : ArrX) (x1 : ArrW256) (x2 : ArrB256) (x3 : ArrW256) (x4 : ArrB256) (b : Fin 8) (l m : Fin 2048) :
    val_main_v23 (F := Ideal) x0 x1 x2 x3 x4 (ix3 b l m)
      = softmax8 (fun b' => score (projected x0 x1 x2) (projected x0 x3 x4) b' l m) b := by
  rw [val_main_v23_apply, Ideal.hostDivf_def, val_main_v22_apply, val_main_v21_apply, didx_v22, exp_eq, sum_eq]
  rfl

/-! ## The weighted sum over the positions, and the residual -/

theorem lidx_v24 (b : Fin 8) (l : Fin 2048) (c : Fin 512) (k : Fin 2048) :
    lidx_main_v24 (ix3 b l c) k = ix3 b l k :=
  funext fun a => Fin.ext (by match a with | ⟨0, _⟩ => rfl | ⟨1, _⟩ => rfl | ⟨2, _⟩ => rfl)
theorem ridx_v24 (b : Fin 8) (l : Fin 2048) (c : Fin 512) (k : Fin 2048) :
    ridx_main_v24 (ix3 b l c) k = ix3 b k c :=
  funext fun a => Fin.ext (by match a with | ⟨0, _⟩ => rfl | ⟨1, _⟩ => rfl | ⟨2, _⟩ => rfl)

/-- The reference's result at (b, l, c) is the block's. -/
theorem reference_apply (x0 : ArrX) (x1 : ArrW256) (x2 : ArrB256) (x3 : ArrW256) (x4 : ArrB256) (x5 : ArrW512)
    (x6 : ArrB512) (b : Fin 8) (l : Fin 2048) (c : Fin 512) :
    val_main_v25 (F := Ideal) x0 x1 x2 x3 x4 x5 x6 (ix3 b l c)
      = attend (projected x0 x1 x2) (projected x0 x3 x4) (projected x0 x5 x6) x0 b l c := by
  rw [val_main_v25_apply, Ideal.addf_def, val_main_v24_apply]
  unfold attend
  refine congrArg (x0 (ix3 b l c) + ·) (Finset.sum_congr rfl fun k _ => ?_)
  rw [lidx_v24, ridx_v24, softmax_eq, proj_o, projected_ix3]

/-- The reference program computes the non-local block of the specification. -/
theorem reference_eq (x0 : (⟨Cert.ReferenceIdeal.S8x2048x512, .f32⟩ : BufTy).Contents (Elt Ideal))
    (x1 : (⟨Cert.ReferenceIdeal.S512x256, .f32⟩ : BufTy).Contents (Elt Ideal))
    (x2 : (⟨Cert.ReferenceIdeal.S256, .f32⟩ : BufTy).Contents (Elt Ideal))
    (x3 : (⟨Cert.ReferenceIdeal.S512x256, .f32⟩ : BufTy).Contents (Elt Ideal))
    (x4 : (⟨Cert.ReferenceIdeal.S256, .f32⟩ : BufTy).Contents (Elt Ideal))
    (x5 : (⟨Cert.ReferenceIdeal.S512x512, .f32⟩ : BufTy).Contents (Elt Ideal))
    (x6 : (⟨Cert.ReferenceIdeal.S512, .f32⟩ : BufTy).Contents (Elt Ideal)) :
    Cert.ReferenceIdeal.Read.val_main_v25 (F := Ideal) x0 x1 x2 x3 x4 x5 x6
      = Cert.NonLocal.result x0 x1 x2 x3 x4 x5 x6 := by
  funext j
  obtain ⟨b, l, c, rfl⟩ : ∃ (b : Fin 8) (l : Fin 2048) (c : Fin 512), j = ix3 b l c :=
    ⟨j 0, j 1, j 2, eq_ix3 j⟩
  exact reference_apply x0 x1 x2 x3 x4 x5 x6 b l c

end Cert.NonLocal.Ref

end
-- ==== Proof.KernelRun.lean ====
/-
  The kernel program's run, stated with its result array.

  The generated frame module proves that every weakly fair execution of the program terminates without a
  fault and leaves the seven argument arrays as they were launched. Its proof knows more than that
  statement keeps: at the end, every buffer that outlives the two kernel regions holds the contents of the
  last segment boundary. The theorem here keeps one more of those buffers, the result array, which is the
  fifth array of the second region and therefore ends at what that region's write-backs leave in it.
-/
import proofs.«149326_j8409545965719_2_alg».proof.Proof.Gen.KernelIdeal.Frame

set_option maxRecDepth 16384

noncomputable section

namespace Cert.NonLocal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch lemma's implicit arguments are found by unifying its conclusion with this statement, which takes
-- unfolding plain definitions in a metavariable's type
set_option backward.isDefEq.respectTransparency.types false in
/-- At the compiled mesh, from any memory whose counters are zero, every weakly fair execution of the program on
    the TensorCores terminates and nothing faults. In every final state the result array holds what the second
    region's write-backs leave in that region's fifth array, computed from the buffer contents with which the
    region is entered, and each of the seven argument arrays holds what it held at the launch. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.NonLocal.Run

end
-- ==== Proof.LibWhole.lean ====
/-
  Two general facts used when a kernel body fills a whole buffer in one store and reads it back.

  * A buffer whose LAST write covers the whole shape (the unit rectangle at zero offsets, of the shape's own sizes) reads
    back as that write's payload, whatever was written before and whatever the buffer held.
  * One plane broadcast over many: an array of shape [1, a, b] broadcast to [m, a, b] reads, at (p, i, j), the plane at
    (0, i, j).
  * A sum over `a * b` consecutive indices is the sum over `a` chunks of the sums over the `b` indices of each chunk.
-/
import Idealize.ShloMosaic.Lib.Pipeline.Value
import Idealize.ShloMosaic.Lib.ValueIdx
import Idealize.ShloMosaic.Lib.ValueLayout

set_option maxRecDepth 16384

noncomputable section

namespace Cert.NonLocal.Lib

open Idealize.ShloMosaic Idealize.ShloMosaic.ValueIdx
open scoped BigOperators

variable {Val : EltTy → Type} {S : Shape} {e : EltTy}

/-- After a last write through the whole-shape rectangle, the buffer reads as that write's payload. -/
theorem read_writes_cons_whole [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A `[1, a, b]` array broadcast to `[m, a, b]` reads, at `(p, i, j)`, the operand's one plane at `(i, j)`. -/
theorem broadcastTo_1ab_mab_apply {α : Type} {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Summing over `a * b` indices chunk by chunk: chunk `q` holds the indices `b * q + r`, `r < b`. -/
theorem sum_chunks {M : Type*} [AddCommMonoid M] (a b : ℕ) (f : Fin (a * b) → M) :
    ∑ n : Fin (a * b), f n
      = ∑ q : Fin a, ∑ r : Fin b, f ⟨b * q.val + r.val, by
          have hq := q.isLt; have hr := r.isLt
          calc b * q.val + r.val < b * q.val + b := by omega
            _ = b * (q.val + 1) := by ring
            _ ≤ b * a := Nat.mul_le_mul_left b hq
            _ = a * b := Nat.mul_comm b a⟩ := by
  refine ((finProdFinEquiv (m := a) (n := b)).sum_comp f).symm.trans ?_
  rw [Fintype.sum_prod_type]
  refine Finset.sum_congr rfl fun q _ => Finset.sum_congr rfl fun r _ => congrArg f (Fin.ext ?_)
  show r.val + b * q.val = b * q.val + r.val
  omega

end Cert.NonLocal.Lib

end
-- ==== Proof.AttnLoop.lean ====
/-
  The attention kernel's body at one grid point, as a value.

  The body zero-fills an accumulator block, runs sixteen trips — trip `k` loads rows [128 k, 128 k + 128) of the two
  resident projections, forms that chunk's scores against the point's own rows, takes the softmax over the batch axis,
  multiplies by the chunk of the third projection and ADDS the product into the accumulator — and finally stores the
  accumulator plus the residual block. Here: the accumulator after `n` trips as a recursion (`acc`), that the scratch
  buffer reads as `acc n` after the first `n` trips' writes, and that the output block the run leaves is the final
  payload of `acc 16` and the residual block.
-/
import proofs.«149326_j8409545965719_2_alg».proof.Proof.Gen.KernelIdeal.Frame
import proofs.«149326_j8409545965719_2_alg».proof.Proof.LibWhole

set_option maxRecDepth 16384

noncomputable section

namespace Cert.NonLocal.Loop

open Idealize.ShloMosaic Idealize.ShloMosaic.TcCoe Idealize.ShloMosaic.Tactic
open Idealize.SL Idealize.SL.Sem
open Cert.KernelIdeal Cert.KernelIdeal.Gen

variable {F : FTy → Type} [FloatOps F]

/-- The whole accumulator block as a rectangle. -/
abbrev whole512 : Rect S8x128x512 := Rect.unit (s := S8x128x512) ![0, 0, 0] S8x128x512.size inb_S8x128x512_S8x128x512_0_0_0

theorem zero3 : (![0, 0, 0] : Fin 3 → Nat) = fun _ => 0 := by
  funext a; match a with | ⟨0, _⟩ => rfl | ⟨1, _⟩ => rfl | ⟨2, _⟩ => rfl

/-- Rows [128 k, 128 k + 128) of the second projection, and of the third. -/
def chunkQ (x1 : Vec F S8x2048x256 .bf16) (k : Fin k1_t1_loop.trips) : Vec F S8x128x256 .bf16 :=
  View.ld x1 (Rect.unit (s := S8x2048x256) (k1_off1 k) S8x128x256.size (k1_off1_inb k))
def chunkO (x2 : Vec F S8x2048x512 .bf16) (k : Fin k1_t1_loop.trips) : Vec F S8x128x512 .bf16 :=
  View.ld x2 (Rect.unit (s := S8x2048x512) (k1_off2 k) S8x128x512.size (k1_off2_inb k))

/-- The accumulator after the first `n` trips: zero, then each trip's payload of the previous accumulator. -/
def acc (v4 : Vec F S8x128x256 .bf16) (x1 : Vec F S8x2048x256 .bf16) (x2 : Vec F S8x2048x512 .bf16) : ℕ → Vec F S8x128x512 .f32
  | 0 => k1_pay1
  | n + 1 => if h : n < k1_t1_loop.trips then k1_pay2 v4 (chunkQ x1 ⟨n, h⟩) (chunkO x2 ⟨n, h⟩) (acc v4 x1 x2 n) else acc v4 x1 x2 n

theorem acc_succ (v4 : Vec F S8x128x256 .bf16) (x1 : Vec F S8x2048x256 .bf16) (x2 : Vec F S8x2048x512 .bf16) (k : Fin k1_t1_loop.trips) :
    acc v4 x1 x2 (k.val + 1) = k1_pay2 v4 (chunkQ x1 k) (chunkO x2 k) (acc v4 x1 x2 k.val) := by
  rw [acc]; exact dif_pos k.isLt

section
variable (𝒱 : Variants) (c : Dev nD) (bd : Option 𝒱.V) (i : grid1.Coords)
  (arg1 : Memref sig .tc .vmem S8x128x256 .bf16) (harg1 : arg1.IsWhole) (arg2 : Memref sig .tc .vmem S8x2048x256 .bf16) (harg2 : arg2.IsWhole)
  (arg3 : Memref sig .tc .vmem S8x2048x512 .bf16) (harg3 : arg3.IsWhole) (arg4 : Memref sig .tc .vmem S8x128x512 .f32) (harg4 : arg4.IsWhole)
  (arg5 : Memref sig .tc .vmem S8x128x512 .f32) (harg5 : arg5.IsWhole) (arg6 : Memref sig .tc .vmem S8x128x512 .f32) (harg6 : arg6.IsWhole)

/-- One trip writes ONE piece, the whole accumulator block: the trip's payload of the point's rows, the two chunks as
    loaded, and the accumulator as the trip finds it. -/
theorem trip_piece (v4 : Vec F S8x128x256 .bf16) (X2 : BufTy.Contents (Elt F) arg2.view.ty) (X3 : BufTy.Contents (Elt F) arg3.view.ty)
    (k : Fin k1_t1_loop.trips) (f6 : BufTy.Contents (Elt F) arg6.view.ty) :
    tripL_k1_t1 (F := F) 𝒱 c bd i arg1 harg1 arg2 harg2 arg3 harg3 arg4 harg4 arg5 harg5 arg6 harg6 v4 X2 X3 k f6
      = [⟨whole512, k1_pay2 v4 (chunkQ (arg2.view.read (Elt F) X2) k) (chunkO (arg3.view.read (Elt F) X3) k)
            (View.ld (arg6.view.read (Elt F) f6) whole512)⟩] := by
  delta tripL_k1_t1
  unfold trip_k1_t1
  rfl

/-- The scratch buffer, zero-filled and then written by the first `n` trips, reads as the accumulator after `n` trips. -/
theorem read_after_trips (v4 : Vec F S8x128x256 .bf16) (x1 : Vec F S8x2048x256 .bf16) (x2 : Vec F S8x2048x512 .bf16)
    (f0 : BufTy.Contents (Elt F) arg6.view.ty) :
    ∀ n : ℕ, n ≤ k1_t1_loop.trips →
      arg6.view.read (Elt F) (arg6.view.writes (Elt F) (arg6.view.writes (Elt F) f0 [⟨whole512, k1_pay1⟩])
        (pb_k1_t1 (F := F) 𝒱 c bd i arg1 harg1 arg2 harg2 arg3 harg3 arg4 harg4 arg5 harg5 arg6 harg6 v4 (harg2.unread x1) (harg3.unread x2)
          (arg6.view.writes (Elt F) f0 [⟨whole512, k1_pay1⟩]) n))
      = acc v4 x1 x2 n
  | 0, _ => by
    rw [pb_k1_t1, View.writes_nil]
    exact Lib.read_writes_cons_whole (S := S8x128x512) _ _ zero3 _ _ _
  | n + 1, hn => by
    have hlt : n < k1_t1_loop.trips := hn
    have ih := read_after_trips v4 x1 x2 f0 n (Nat.le_of_lt hlt)
    have hs := pb_k1_t1_succ (F := F) 𝒱 c bd i arg1 harg1 arg2 harg2 arg3 harg3 arg4 harg4 arg5 harg5 arg6 harg6 v4 (harg2.unread x1) (harg3.unread x2)
      (arg6.view.writes (Elt F) f0 [⟨whole512, k1_pay1⟩]) ⟨n, hlt⟩
    rw [show n + 1 = (⟨n, hlt⟩ : Fin k1_t1_loop.trips).val + 1 from rfl, hs, trip_piece, List.singleton_append,
      Lib.read_writes_cons_whole (S := S8x128x512) _ _ zero3, acc_succ, harg2.read_unread, harg3.read_unread]
    show k1_pay2 v4 _ _ (View.ld (arg6.view.read (Elt F) _) whole512) = k1_pay2 v4 _ _ (acc v4 x1 x2 n)
    rw [ih, View.ld_unit_zero (S := S8x128x512) zero3]

end

section
variable (c : Dev nD) (i : grid1.Coords)
  (arg1 : Memref sig .tc .vmem S8x128x256 .bf16) (harg1 : arg1.IsWhole) (arg2 : Memref sig .tc .vmem S8x2048x256 .bf16) (harg2 : arg2.IsWhole)
  (arg3 : Memref sig .tc .vmem S8x2048x512 .bf16) (harg3 : arg3.IsWhole) (arg4 : Memref sig .tc .vmem S8x128x512 .f32) (harg4 : arg4.IsWhole)
  (arg5 : Memref sig .tc .vmem S8x128x512 .f32) (harg5 : arg5.IsWhole) (arg6 : Memref sig .tc .vmem S8x128x512 .f32) (harg6 : arg6.IsWhole)

/-- What the body leaves in the output block: the accumulator after all the trips plus the residual block (the final
    payload), whatever staging memrefs the pipeline hands the body. -/
theorem out_block (x0 : Vec F S8x128x256 .bf16) (x1 : Vec F S8x2048x256 .bf16) (x2 : Vec F S8x2048x512 .bf16) (x3 : Vec F S8x128x512 .f32) :
    out1_A_4 (F := F) c i arg1 harg1 arg2 harg2 arg3 harg3 arg4 harg4 arg5 harg5 arg6 harg6 x0 x1 x2 x3 = k1_pay3 (acc x0 x1 x2 k1_t1_loop.trips) x3 := by
  unfold out1_A_4
  rw [View.read_writes_eq_canon _ _ _ (cover1_A_4 c i arg1 harg1 arg2 harg2 arg3 harg3 arg4 harg4 arg5 harg5 arg6 harg6 x0 x1 x2 x3)]
  unfold kernelRun1_A
  dsimp only
  sl_unfold_run_names
  rw [View.canon_unit_zero (S := S8x128x512) zero3]
  simp only [View.readAt_eq_ld, harg1.read_unread, harg4.read_unread, View.ld_unit_zero (S := S8x128x512) zero3,
    View.ld_unit_zero (S := S8x128x256) zero3]
  rw [View.writes_append]
  exact congrArg (fun a => k1_pay3 a x3)
    (read_after_trips Variants.none c none i arg1 harg1 arg2 harg2 arg3 harg3 arg4 harg4 arg5 harg5 arg6 harg6 x0 x1 x2 _ k1_t1_loop.trips le_rfl)

end

end Cert.NonLocal.Loop

end
-- ==== Proof.AttnBlock.lean ====
/-
  One trip of the attention kernel's loop, read at an index, over the extended reals.

  For the point's rows `P` ([8, 128, 256]), a chunk `Q` of 128 rows of the second projection, the same chunk `O` of the
  third ([8, 128, 512]) and the accumulator `A` the trip finds, the trip leaves at (b, l, c)
      A b l c + ∑ m < 128, w b l m · O b m c,
  where `w b l m` is the softmax over the batch axis of the chunk's scores `∑ i < 256, P b' l i · Q b' m i`.
  The two block products are matrix-unit products into a zero accumulator, so each is the plain sum over its contracted
  axis; the maximum and the sum over the batch axis are reductions over axis 0, read as a fold of `max` and a sum over
  `Fin 8`; the keep-dims reshape and broadcast put the reduced plane back under every batch entry.
-/
import proofs.«149326_j8409545965719_2_alg».proof.Proof.Gen.KernelIdeal.Frame
import proofs.«149326_j8409545965719_2_alg».proof.Proof.LibWhole
import proofs.«149326_j8409545965719_2_alg».proof.Proof.AttnLoop
import proofs.«149326_j8409545965719_2_alg».proof.Proof.Spec
import Idealize.ShloMosaic.PureOps.Ideal.Laws
import Idealize.ShloMosaic.Lib.ValueLayout

set_option maxRecDepth 16384

noncomputable section

namespace Cert.NonLocal.Block

open Idealize.ShloMosaic Idealize.ShloMosaic.ValueIdx
open Cert.KernelIdeal Cert.KernelIdeal.Gen Cert.NonLocal
open scoped BigOperators

/-! ### Which operand elements each product reads

The scores contract the 256 channels of both operands, batch axis 0 kept: at result (b, l, m) and contraction index k
the operands are read at (b, l, k) and (b, m, k). The weighted sum contracts the chunk's 128 rows: at result (b, l, c)
the operands are read at (b, l, k) and (b, k, c). -/

theorem dScore_lhs0 (j : S8x128x128.Idx) (q : dot_S8x128x256_S8x128x256_S8x128x128_2_2_1_1_0_0.contr.Idx) :
    (dot_S8x128x256_S8x128x256_S8x128x128_2_2_1_1_0_0.lhsIdx j q 0).val = (j 0).val := by
  unfold DotDims.lhsIdx
  rw [dif_pos (show (0 : Fin S8x128x256.rank) ∈ dot_S8x128x256_S8x128x256_S8x128x128_2_2_1_1_0_0.lhsBatch by decide)]
  rfl
theorem dScore_lhs1 (j : S8x128x128.Idx) (q : dot_S8x128x256_S8x128x256_S8x128x128_2_2_1_1_0_0.contr.Idx) :
    (dot_S8x128x256_S8x128x256_S8x128x128_2_2_1_1_0_0.lhsIdx j q 1).val = (j 1).val := by
  unfold DotDims.lhsIdx
  rw [dif_neg (show ¬(1 : Fin S8x128x256.rank) ∈ dot_S8x128x256_S8x128x256_S8x128x128_2_2_1_1_0_0.lhsBatch by decide), dif_pos (show (1 : Fin S8x128x256.rank) ∈ dot_S8x128x256_S8x128x256_S8x128x128_2_2_1_1_0_0.lhsNonContracting by decide)]
  rfl
theorem dScore_lhs2 (j : S8x128x128.Idx) (q : dot_S8x128x256_S8x128x256_S8x128x128_2_2_1_1_0_0.contr.Idx) :
    (dot_S8x128x256_S8x128x256_S8x128x128_2_2_1_1_0_0.lhsIdx j q 2).val = (q ⟨0, by decide⟩).val :=
  dot_S8x128x256_S8x128x256_S8x128x128_2_2_1_1_0_0.lhsIdx_val_of_single rfl j q
theorem dScore_rhs0 (j : S8x128x128.Idx) (q : dot_S8x128x256_S8x128x256_S8x128x128_2_2_1_1_0_0.contr.Idx) :
    (dot_S8x128x256_S8x128x256_S8x128x128_2_2_1_1_0_0.rhsIdx j q 0).val = (j 0).val := by
  unfold DotDims.rhsIdx
  rw [dif_pos (show (0 : Fin S8x128x256.rank) ∈ dot_S8x128x256_S8x128x256_S8x128x128_2_2_1_1_0_0.rhsBatch by decide)]
  rfl
theorem dScore_rhs1 (j : S8x128x128.Idx) (q : dot_S8x128x256_S8x128x256_S8x128x128_2_2_1_1_0_0.contr.Idx) :
    (dot_S8x128x256_S8x128x256_S8x128x128_2_2_1_1_0_0.rhsIdx j q 1).val = (j 2).val := by
  unfold DotDims.rhsIdx
  rw [dif_neg (show ¬(1 : Fin S8x128x256.rank) ∈ dot_S8x128x256_S8x128x256_S8x128x128_2_2_1_1_0_0.rhsBatch by decide), dif_pos (show (1 : Fin S8x128x256.rank) ∈ dot_S8x128x256_S8x128x256_S8x128x128_2_2_1_1_0_0.rhsNonContracting by decide)]
  rfl
theorem dScore_rhs2 (j : S8x128x128.Idx) (q : dot_S8x128x256_S8x128x256_S8x128x128_2_2_1_1_0_0.contr.Idx) :
    (dot_S8x128x256_S8x128x256_S8x128x128_2_2_1_1_0_0.rhsIdx j q 2).val = (q ⟨0, by decide⟩).val :=
  dot_S8x128x256_S8x128x256_S8x128x128_2_2_1_1_0_0.rhsIdx_val_of_single rfl j q
theorem dMix_lhs0 (j : S8x128x512.Idx) (q : dot_S8x128x128_S8x128x512_S8x128x512_2_1_1_2_0_0.contr.Idx) :
    (dot_S8x128x128_S8x128x512_S8x128x512_2_1_1_2_0_0.lhsIdx j q 0).val = (j 0).val := by
  unfold DotDims.lhsIdx
  rw [dif_pos (show (0 : Fin S8x128x128.rank) ∈ dot_S8x128x128_S8x128x512_S8x128x512_2_1_1_2_0_0.lhsBatch by decide)]
  rfl
theorem dMix_lhs1 (j : S8x128x512.Idx) (q : dot_S8x128x128_S8x128x512_S8x128x512_2_1_1_2_0_0.contr.Idx) :
    (dot_S8x128x128_S8x128x512_S8x128x512_2_1_1_2_0_0.lhsIdx j q 1).val = (j 1).val := by
  unfold DotDims.lhsIdx
  rw [dif_neg (show ¬(1 : Fin S8x128x128.rank) ∈ dot_S8x128x128_S8x128x512_S8x128x512_2_1_1_2_0_0.lhsBatch by decide), dif_pos (show (1 : Fin S8x128x128.rank) ∈ dot_S8x128x128_S8x128x512_S8x128x512_2_1_1_2_0_0.lhsNonContracting by decide)]
  rfl
theorem dMix_lhs2 (j : S8x128x512.Idx) (q : dot_S8x128x128_S8x128x512_S8x128x512_2_1_1_2_0_0.contr.Idx) :
    (dot_S8x128x128_S8x128x512_S8x128x512_2_1_1_2_0_0.lhsIdx j q 2).val = (q ⟨0, by decide⟩).val :=
  dot_S8x128x128_S8x128x512_S8x128x512_2_1_1_2_0_0.lhsIdx_val_of_single rfl j q
theorem dMix_rhs0 (j : S8x128x512.Idx) (q : dot_S8x128x128_S8x128x512_S8x128x512_2_1_1_2_0_0.contr.Idx) :
    (dot_S8x128x128_S8x128x512_S8x128x512_2_1_1_2_0_0.rhsIdx j q 0).val = (j 0).val := by
  unfold DotDims.rhsIdx
  rw [dif_pos (show (0 : Fin S8x128x512.rank) ∈ dot_S8x128x128_S8x128x512_S8x128x512_2_1_1_2_0_0.rhsBatch by decide)]
  rfl
theorem dMix_rhs1 (j : S8x128x512.Idx) (q : dot_S8x128x128_S8x128x512_S8x128x512_2_1_1_2_0_0.contr.Idx) :
    (dot_S8x128x128_S8x128x512_S8x128x512_2_1_1_2_0_0.rhsIdx j q 1).val = (q ⟨0, by decide⟩).val :=
  dot_S8x128x128_S8x128x512_S8x128x512_2_1_1_2_0_0.rhsIdx_val_of_single rfl j q
theorem dMix_rhs2 (j : S8x128x512.Idx) (q : dot_S8x128x128_S8x128x512_S8x128x512_2_1_1_2_0_0.contr.Idx) :
    (dot_S8x128x128_S8x128x512_S8x128x512_2_1_1_2_0_0.rhsIdx j q 2).val = (j 2).val := by
  unfold DotDims.rhsIdx
  rw [dif_neg (show ¬(2 : Fin S8x128x512.rank) ∈ dot_S8x128x128_S8x128x512_S8x128x512_2_1_1_2_0_0.rhsBatch by decide), dif_pos (show (2 : Fin S8x128x512.rank) ∈ dot_S8x128x128_S8x128x512_S8x128x512_2_1_1_2_0_0.rhsNonContracting by decide)]
  rfl

theorem dScore_lhs (b : Fin 8) (l m : Fin 128) (k : Fin 256) :
    dot_S8x128x256_S8x128x256_S8x128x128_2_2_1_1_0_0.lhsIdx (ix3 b l m) ((contrEquiv1 dot_S8x128x256_S8x128x256_S8x128x128_2_2_1_1_0_0 256 rfl rfl).symm k) = ix3 b l k := funext fun a => Fin.ext (by
  have hk := contrEquiv1_symm_val dot_S8x128x256_S8x128x256_S8x128x128_2_2_1_1_0_0 256 rfl rfl k
  match a with
  | ⟨0, _⟩ => exact dScore_lhs0 _ _
  | ⟨1, _⟩ => exact dScore_lhs1 _ _
  | ⟨2, _⟩ => exact (dScore_lhs2 _ _).trans hk)

theorem dScore_rhs (b : Fin 8) (l m : Fin 128) (k : Fin 256) :
    dot_S8x128x256_S8x128x256_S8x128x128_2_2_1_1_0_0.rhsIdx (ix3 b l m) ((contrEquiv1 dot_S8x128x256_S8x128x256_S8x128x128_2_2_1_1_0_0 256 rfl rfl).symm k) = ix3 b m k := funext fun a => Fin.ext (by
  have hk := contrEquiv1_symm_val dot_S8x128x256_S8x128x256_S8x128x128_2_2_1_1_0_0 256 rfl rfl k
  match a with
  | ⟨0, _⟩ => exact dScore_rhs0 _ _
  | ⟨1, _⟩ => exact dScore_rhs1 _ _
  | ⟨2, _⟩ => exact (dScore_rhs2 _ _).trans hk)

theorem dMix_lhs (b : Fin 8) (l : Fin 128) (c : Fin 512) (k : Fin 128) :
    dot_S8x128x128_S8x128x512_S8x128x512_2_1_1_2_0_0.lhsIdx (ix3 b l c) ((contrEquiv1 dot_S8x128x128_S8x128x512_S8x128x512_2_1_1_2_0_0 128 rfl rfl).symm k) = ix3 b l k := funext fun a => Fin.ext (by
  have hk := contrEquiv1_symm_val dot_S8x128x128_S8x128x512_S8x128x512_2_1_1_2_0_0 128 rfl rfl k
  match a with
  | ⟨0, _⟩ => exact dMix_lhs0 _ _
  | ⟨1, _⟩ => exact dMix_lhs1 _ _
  | ⟨2, _⟩ => exact (dMix_lhs2 _ _).trans hk)

theorem dMix_rhs (b : Fin 8) (l : Fin 128) (c : Fin 512) (k : Fin 128) :
    dot_S8x128x128_S8x128x512_S8x128x512_2_1_1_2_0_0.rhsIdx (ix3 b l c) ((contrEquiv1 dot_S8x128x128_S8x128x512_S8x128x512_2_1_1_2_0_0 128 rfl rfl).symm k) = ix3 b k c := funext fun a => Fin.ext (by
  have hk := contrEquiv1_symm_val dot_S8x128x128_S8x128x512_S8x128x512_2_1_1_2_0_0 128 rfl rfl k
  match a with
  | ⟨0, _⟩ => exact dMix_rhs0 _ _
  | ⟨1, _⟩ => exact (dMix_rhs1 _ _).trans hk
  | ⟨2, _⟩ => exact dMix_rhs2 _ _)

/-! ### The two block products at an index -/

/-- The chunk's scores: rows of the point against rows of the chunk, batch by batch. -/
theorem score_apply (P Q : FVec Ideal S8x128x256 .bf16) (b : Fin 8) (l m : Fin 128) :
    matmul dot_S8x128x256_S8x128x256_S8x128x128_2_2_1_1_0_0 none P Q (constant (F := Ideal) S8x128x128 .f32 0x00000000#32) (ix3 b l m)
      = ∑ k : Fin 256, P (ix3 b l k) * Q (ix3 b m k) := by
  simp only [matmul]
  rw [Ideal.matmul_constant_zero_apply, ← Equiv.sum_comp (contrEquiv1 dot_S8x128x256_S8x128x256_S8x128x128_2_2_1_1_0_0 256 rfl rfl).symm]
  refine Finset.sum_congr rfl fun k _ => ?_
  rw [dScore_lhs, dScore_rhs]

/-- The weighted sum over the chunk's rows. -/
theorem mix_apply (w : FVec Ideal S8x128x128 .bf16) (O : FVec Ideal S8x128x512 .bf16) (b : Fin 8) (l : Fin 128) (c : Fin 512) :
    matmul dot_S8x128x128_S8x128x512_S8x128x512_2_1_1_2_0_0 none w O (constant (F := Ideal) S8x128x512 .f32 0x00000000#32) (ix3 b l c)
      = ∑ k : Fin 128, w (ix3 b l k) * O (ix3 b k c) := by
  simp only [matmul]
  rw [Ideal.matmul_constant_zero_apply, ← Equiv.sum_comp (contrEquiv1 dot_S8x128x128_S8x128x512_S8x128x512_2_1_1_2_0_0 128 rfl rfl).symm]
  refine Finset.sum_congr rfl fun k _ => ?_
  rw [dMix_lhs, dMix_rhs]

/-! ### The reductions over the batch axis, put back under every batch entry -/

theorem lift_batch (l m : Fin 128) (k : Fin 8) :
    reduces_S8x128x128_S128x128.lift (ix2 l m) k = ix3 k l m := funext fun a => Fin.ext (by
  match a with
  | ⟨0, _⟩ => rfl
  | ⟨1, _⟩ => rfl
  | ⟨2, _⟩ => rfl)

/-- The largest score over the batch axis, as the plane broadcast back to every batch entry. -/
theorem max_plane_apply (s : FVec Ideal S8x128x128 .f32) (b : Fin 8) (l m : Fin 128) :
    broadcastTo S8x128x128 (shapeCast S1x128x128
        (multiReduction .maximumf [0] S128x128 s 0xFF800000#32 reduces_S8x128x128_S128x128 (.inl rfl) rfl)
        shapeCasts_S128x128_S1x128x128) broadcasts_S1x128x128_S8x128x128 (ix3 b l m)
      = max8 (fun b' => s (ix3 b' l m)) := by
  rw [Lib.broadcastTo_1ab_mab_apply, shapeCast_ab_1ab_apply]
  refine (Ideal.multiReduction_maximumf_single s 0xFF800000#32 reduces_S8x128x128_S128x128 (.inl rfl) rfl (ix2 l m)).trans ?_
  unfold max8
  refine congrArg (Finset.fold max _ · Finset.univ) (funext fun k => ?_)
  exact congrArg s (lift_batch l m k)

/-- The sum over the batch axis, likewise. -/
theorem sum_plane_apply (e : FVec Ideal S8x128x128 .f32) (b : Fin 8) (l m : Fin 128) :
    broadcastTo S8x128x128 (shapeCast S1x128x128
        (multiReduction .add [0] S128x128 e 0x00000000#32 reduces_S8x128x128_S128x128 (.inl rfl) rfl)
        shapeCasts_S128x128_S1x128x128) broadcasts_S1x128x128_S8x128x128 (ix3 b l m)
      = ∑ b' : Fin 8, e (ix3 b' l m) := by
  rw [Lib.broadcastTo_1ab_mab_apply, shapeCast_ab_1ab_apply]
  refine (Ideal.multiReduction_add_single e 0x00000000#32 reduces_S8x128x128_S128x128 (.inl rfl) rfl (ix2 l m)).trans ?_
  exact Finset.sum_congr rfl fun k _ => congrArg e (lift_batch l m k)

/-- The exponential of a block, entry by entry. -/
theorem exp_apply (v : FVec Ideal S8x128x128 .f32) (j : S8x128x128.Idx) : exp v j = Ideal.exp (v j) := rfl

/-! ### One trip's payload at an index -/

/-- The trip leaves, at (b, l, c), the accumulator it found plus the chunk's rows of the third projection weighted by
    the batch-axis softmax of the chunk's scores. -/
theorem trip_apply (P Q : Vec Ideal S8x128x256 .bf16) (O : Vec Ideal S8x128x512 .bf16) (A : Vec Ideal S8x128x512 .f32)
    (b : Fin 8) (l : Fin 128) (c : Fin 512) :
    k1_pay2 (F := Ideal) P Q O A (ix3 b l c)
      = A (ix3 b l c) + ∑ m : Fin 128, softmax8 (fun b' => ∑ k : Fin 256, P (ix3 b' l k) * Q (ix3 b' m k)) b * O (ix3 b m c) := by
  unfold k1_pay2
  simp only [shapeCast_self]
  rw [addf_apply, mix_apply]
  refine congrArg (A (ix3 b l c) + ·) (Finset.sum_congr rfl fun m _ => ?_)
  refine congrArg (· * O (ix3 b m c)) ?_
  rw [truncf_apply, divf_apply, sum_plane_apply]
  unfold softmax8
  simp only [exp_apply, subf_apply, score_apply]
  have hmx : ∀ b' : Fin 8,
      broadcastTo S8x128x128 (shapeCast S1x128x128
          (multiReduction .maximumf [0] S128x128
            (matmul (φ₁ := .bf16) (φ₂ := .bf16) dot_S8x128x256_S8x128x256_S8x128x128_2_2_1_1_0_0 none P Q (constant (F := Ideal) S8x128x128 .f32 0x00000000#32))
            0xFF800000#32 reduces_S8x128x128_S128x128 (.inl rfl) rfl)
          shapeCasts_S128x128_S1x128x128) broadcasts_S1x128x128_S8x128x128 (ix3 b' l m)
        = max8 (fun b'' => ∑ k : Fin 256, P (ix3 b'' l k) * Q (ix3 b'' m k)) := fun b' => by
    rw [max_plane_apply]
    exact congrArg max8 (funext fun b'' => score_apply P Q b'' l m)
  exact congrArg₂ Ideal.div (congrArg Ideal.exp (congrArg₂ (· - ·) rfl (hmx b)))
    (Finset.sum_congr rfl fun b' _ => congrArg Ideal.exp (congrArg₂ (· - ·) rfl (hmx b')))

/-! ### The chunks' rows and the accumulator at an index -/

open Cert.NonLocal.Loop

/-- Row `r` of chunk `k` is row `128 k + r` of the resident array. -/
def row (k : Fin k1_t1_loop.trips) (r : Fin 128) : Fin 2048 :=
  ⟨128 * k.val + r.val, by have := k.isLt; have := k1_t1_abs.2.1; have := r.isLt; omega⟩

theorem chunkQ_apply (x1 : Vec Ideal S8x2048x256 .bf16) (k : Fin k1_t1_loop.trips) (b : Fin 8) (r : Fin 128) (i : Fin 256) :
    chunkQ x1 k (ix3 b r i) = x1 (ix3 b (row k r) i) := by
  unfold chunkQ
  refine congrArg x1 (funext fun a => Fin.ext ?_)
  match a with
  | ⟨0, _⟩ => show (k1_off1 k) 0 + 1 * b.val = b.val; rw [k1_off1_eq]; show 0 + 1 * b.val = b.val; omega
  | ⟨1, _⟩ => show (k1_off1 k) 1 + 1 * r.val = 128 * k.val + r.val; rw [k1_off1_eq]; show 128 * k.val + 1 * r.val = _; omega
  | ⟨2, _⟩ => show (k1_off1 k) 2 + 1 * i.val = i.val; rw [k1_off1_eq]; show 0 + 1 * i.val = i.val; omega

theorem chunkO_apply (x2 : Vec Ideal S8x2048x512 .bf16) (k : Fin k1_t1_loop.trips) (b : Fin 8) (r : Fin 128) (c : Fin 512) :
    chunkO x2 k (ix3 b r c) = x2 (ix3 b (row k r) c) := by
  unfold chunkO
  refine congrArg x2 (funext fun a => Fin.ext ?_)
  match a with
  | ⟨0, _⟩ => show (k1_off2 k) 0 + 1 * b.val = b.val; rw [k1_off2_eq]; show 0 + 1 * b.val = b.val; omega
  | ⟨1, _⟩ => show (k1_off2 k) 1 + 1 * r.val = 128 * k.val + r.val; rw [k1_off2_eq]; show 128 * k.val + 1 * r.val = _; omega
  | ⟨2, _⟩ => show (k1_off2 k) 2 + 1 * c.val = c.val; rw [k1_off2_eq]; show 0 + 1 * c.val = c.val; omega

/-- The weight of resident row `m` for the point's row `l` in batch `b`, times the value row: one term of the sum. -/
def term (P : Vec Ideal S8x128x256 .bf16) (x1 : Vec Ideal S8x2048x256 .bf16) (x2 : Vec Ideal S8x2048x512 .bf16)
    (b : Fin 8) (l : Fin 128) (c : Fin 512) (m : Fin 2048) : EReal :=
  softmax8 (fun b' => ∑ k : Fin 256, P (ix3 b' l k) * x1 (ix3 b' m k)) b * x2 (ix3 b m c)

/-- What trip `j` adds at (b, l, c): its chunk's 128 terms (nothing past the last trip). -/
def tripTerm (P : Vec Ideal S8x128x256 .bf16) (x1 : Vec Ideal S8x2048x256 .bf16) (x2 : Vec Ideal S8x2048x512 .bf16)
    (b : Fin 8) (l : Fin 128) (c : Fin 512) (j : ℕ) : EReal :=
  if h : j < k1_t1_loop.trips then ∑ r : Fin 128, term P x1 x2 b l c (row ⟨j, h⟩ r) else 0

theorem zero_block_apply (j : S8x128x512.Idx) : k1_pay1 (F := Ideal) j = Ideal.ofBits .f32 0x00000000#32 := by
  unfold k1_pay1
  simp only [shapeCast_self]
  rfl

/-- After `n` trips the accumulator holds, at (b, l, c), zero plus the first `n` trips' terms. -/
theorem acc_apply (P : Vec Ideal S8x128x256 .bf16) (x1 : Vec Ideal S8x2048x256 .bf16) (x2 : Vec Ideal S8x2048x512 .bf16)
    (b : Fin 8) (l : Fin 128) (c : Fin 512) :
    ∀ n : ℕ, n ≤ k1_t1_loop.trips →
      acc (F := Ideal) P x1 x2 n (ix3 b l c) = Ideal.ofBits .f32 0x00000000#32 + ∑ j ∈ Finset.range n, tripTerm P x1 x2 b l c j
  | 0, _ => by
    rw [Finset.range_zero, Finset.sum_empty, add_zero]
    exact zero_block_apply _
  | n + 1, hn => by
    have hlt : n < k1_t1_loop.trips := hn
    rw [show n + 1 = (⟨n, hlt⟩ : Fin k1_t1_loop.trips).val + 1 from rfl, acc_succ, trip_apply,
      acc_apply P x1 x2 b l c n (Nat.le_of_lt hlt), Finset.sum_range_succ, add_assoc]
    refine congrArg (_ + ·) (congrArg (_ + ·) ?_)
    unfold tripTerm
    rw [dif_pos hlt]
    refine Finset.sum_congr rfl fun r _ => ?_
    unfold term
    simp only [chunkQ_apply, chunkO_apply]

/-! ### The output block -/

section
variable (c : Dev nD) (i : grid1.Coords)
  (arg1 : Memref sig .tc .vmem S8x128x256 .bf16) (harg1 : arg1.IsWhole) (arg2 : Memref sig .tc .vmem S8x2048x256 .bf16) (harg2 : arg2.IsWhole)
  (arg3 : Memref sig .tc .vmem S8x2048x512 .bf16) (harg3 : arg3.IsWhole) (arg4 : Memref sig .tc .vmem S8x128x512 .f32) (harg4 : arg4.IsWhole)
  (arg5 : Memref sig .tc .vmem S8x128x512 .f32) (harg5 : arg5.IsWhole) (arg6 : Memref sig .tc .vmem S8x128x512 .f32) (harg6 : arg6.IsWhole)

/-- The output block at (b, l, c): the residual plus ALL 2048 resident rows' values, each weighted by the batch-axis
    softmax of its score against the point's row. The sixteen chunks of 128 rows are the 2048 rows in order, the zero
    the accumulator starts from is the additive identity, and the residual commutes to the front. -/
theorem out_block_apply (x0 : Vec Ideal S8x128x256 .bf16) (x1 : Vec Ideal S8x2048x256 .bf16) (x2 : Vec Ideal S8x2048x512 .bf16)
    (x3 : Vec Ideal S8x128x512 .f32) (b : Fin 8) (l : Fin 128) (cc : Fin 512) :
    out1_A_4 (F := Ideal) c i arg1 harg1 arg2 harg2 arg3 harg3 arg4 harg4 arg5 harg5 arg6 harg6 x0 x1 x2 x3 (ix3 b l cc)
      = x3 (ix3 b l cc) + ∑ m : Fin 2048, softmax8 (fun b' => ∑ k : Fin 256, x0 (ix3 b' l k) * x1 (ix3 b' m k)) b * x2 (ix3 b m cc) := by
  have h16 : k1_t1_loop.trips = 16 := by decide
  rw [out_block]
  unfold k1_pay3
  rw [addf_apply, acc_apply x0 x1 x2 b l cc _ le_rfl, Ideal.ofBits_zero_f32, zero_add, add_comm]
  refine congrArg (x3 (ix3 b l cc) + ·) ?_
  rw [h16, Finset.sum_range]
  refine ((Lib.sum_chunks 16 128 (term x0 x1 x2 b l cc)).trans (Finset.sum_congr rfl fun q _ => ?_)).symm
  unfold tripTerm
  rw [dif_pos (lt_of_lt_of_eq q.isLt h16.symm)]
  rfl

end

end Cert.NonLocal.Block

end
-- ==== Proof.AttnArray.lean ====
/-
  From the blocks of the second kernel region to its result array.

  The region visits sixteen grid points. At point `t` it reads rows `128 t … 128 t + 127` of the first
  projection and of the residual input, the whole of the other two projections, and writes the same rows of
  the result. What the body leaves in the output block is known row by row as a function of the blocks it
  was given. Reading each input block back as rows of its array turns that into the statement that every
  point writes ITS block of ONE function of the four arrays, the attention formula of the specification;
  the sixteen blocks tile the array, so the array ends holding that function.
-/
import proofs.«149326_j8409545965719_2_alg».proof.Proof.Gen.KernelIdeal.Frame
import proofs.«149326_j8409545965719_2_alg».proof.Proof.Spec
import proofs.«149326_j8409545965719_2_alg».proof.Proof.AttnBlock
import Idealize.ShloMosaic.Lib.Pipeline.Value
import Idealize.ShloMosaic.Lib.ValueIdx

set_option maxRecDepth 16384

noncomputable section

namespace Cert.NonLocal.Arr

open Cert.KernelIdeal Cert.KernelIdeal.Gen Cert.NonLocal
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## Where the five windows sit at each grid point -/

/-- The printed index maps over the sixteen grid points: the first input, the residual input and the output move
    along the position axis with the point, one block of 128 rows per point; the other two inputs stay at
    block zero, where their one block is the whole array. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = t.val ∧ win1_3.index t (2 : Fin 3) = 0
    ∧ win1_4.index t (0 : Fin 3) = 0 ∧ win1_4.index t (1 : Fin 3) = t.val ∧ win1_4.index t (2 : Fin 3) = 0 :=
  (by decide +kernel : ∀ t : Fin grid1.N, _)

/-! ## The input blocks, read off the arrays -/

/-- Row `l` of the first input's block at point `t` is row `128 t + l` of its array. -/
theorem blk0 (c : Dev nD) (t : Fin cfg1.N) (b : Fin 8) (l : Fin 128) (k : Fin 256) (L : Fin 2048)
    (hL : L.val = 128 * t.val + l.val) :
    iblk1 V c 0 t (ix3 b l k) = (V c main_v5 : A3 8 2048 256) (ix3 b L k) := by
  obtain ⟨e0, e1, e2, -⟩ := idx_facts t
  unfold iblk1
  rw [View.read_apply]
  show V c main_v5 (((cfg1.win 0).blk t).view.emb (ix3 b l k)) = V c main_v5 (ix3 b L k)
  refine congrArg (V c main_v5) (funext fun a => Fin.ext ?_)
  match a with
  | ⟨0, _⟩ => show win1_0.index t (0 : Fin 3) * 8 + 1 * b.val = b.val; omega
  | ⟨1, _⟩ => show win1_0.index t (1 : Fin 3) * 128 + 1 * l.val = L.val; omega
  | ⟨2, _⟩ => show win1_0.index t (2 : Fin 3) * 256 + 1 * k.val = k.val; omega

/-- The second input's one block is its whole array. -/
theorem blk1 (c : Dev nD) (t : Fin cfg1.N) (b : Fin 8) (m : Fin 2048) (k : Fin 256) :
    iblk1 V c 1 t (ix3 b m k) = (V c main_v6 : A3 8 2048 256) (ix3 b m k) := by
  obtain ⟨-, -, -, e0, e1, e2, -⟩ := idx_facts t
  unfold iblk1
  rw [View.read_apply]
  show V c main_v6 (((cfg1.win 1).blk t).view.emb (ix3 b m k)) = V c main_v6 (ix3 b m k)
  refine congrArg (V c main_v6) (funext fun a => Fin.ext ?_)
  match a with
  | ⟨0, _⟩ => show win1_1.index t (0 : Fin 3) * 8 + 1 * b.val = b.val; omega
  | ⟨1, _⟩ => show win1_1.index t (1 : Fin 3) * 2048 + 1 * m.val = m.val; omega
  | ⟨2, _⟩ => show win1_1.index t (2 : Fin 3) * 256 + 1 * k.val = k.val; omega

/-- So is the third input's. -/
theorem blk2 (c : Dev nD) (t : Fin cfg1.N) (b : Fin 8) (m : Fin 2048) (cc : Fin 512) :
    iblk1 V c 2 t (ix3 b m cc) = (V c main_v7 : A3 8 2048 512) (ix3 b m cc) := by
  obtain ⟨-, -, -, -, -, -, e0, e1, e2, -⟩ := idx_facts t
  unfold iblk1
  rw [View.read_apply]
  show V c main_v7 (((cfg1.win 2).blk t).view.emb (ix3 b m cc)) = V c main_v7 (ix3 b m cc)
  refine congrArg (V c main_v7) (funext fun a => Fin.ext ?_)
  match a with
  | ⟨0, _⟩ => show win1_2.index t (0 : Fin 3) * 8 + 1 * b.val = b.val; omega
  | ⟨1, _⟩ => show win1_2.index t (1 : Fin 3) * 2048 + 1 * m.val = m.val; omega
  | ⟨2, _⟩ => show win1_2.index t (2 : Fin 3) * 512 + 1 * cc.val = cc.val; omega

/-- Row `l` of the residual input's block at point `t` is row `128 t + l` of its array. -/
theorem blk3 (c : Dev nD) (t : Fin cfg1.N) (b : Fin 8) (l : Fin 128) (cc : Fin 512) (L : Fin 2048)
    (hL : L.val = 128 * t.val + l.val) :
    iblk1 V c 3 t (ix3 b l cc) = (V c main_arg0 : A3 8 2048 512) (ix3 b L cc) := by
  obtain ⟨-, -, -, -, -, -, -, -, -, e0, e1, e2, -⟩ := idx_facts t
  unfold iblk1
  rw [View.read_apply]
  show V c main_arg0 (((cfg1.win 3).blk t).view.emb (ix3 b l cc)) = V c main_arg0 (ix3 b L cc)
  refine congrArg (V c main_arg0) (funext fun a => Fin.ext ?_)
  match a with
  | ⟨0, _⟩ => show win1_3.index t (0 : Fin 3) * 8 + 1 * b.val = b.val; omega
  | ⟨1, _⟩ => show win1_3.index t (1 : Fin 3) * 128 + 1 * l.val = L.val; omega
  | ⟨2, _⟩ => show win1_3.index t (2 : Fin 3) * 512 + 1 * cc.val = cc.val; omega

/-! ## What each point writes back -/

/-- The attention formula of the four arrays the region is entered with: what the result array ends holding. -/
abbrev G (c : Dev nD) : A3 8 2048 512 :=
  fun j => attend (V c main_v5 : A3 8 2048 256) (V c main_v6 : A3 8 2048 256) (V c main_v7 : A3 8 2048 512)
    (V c main_arg0 : A3 8 2048 512) (j 0) (j 1) (j 2)

/-- The block formula over a block of 128 rows is the attention formula at the array's row, once each block it
    reads is the matching part of its array: stated over plain arrays of extended reals. -/
theorem formula_rows (x0 : A3 8 128 256) (x1 : A3 8 2048 256) (x2 : A3 8 2048 512) (x3 : A3 8 128 512)
    (P Q : A3 8 2048 256) (O X : A3 8 2048 512) (b : Fin 8) (l : Fin 128) (cc : Fin 512) (L : Fin 2048)
    (h0 : ∀ (b' : Fin 8) (k : Fin 256), x0 (ix3 b' l k) = P (ix3 b' L k))
    (h1 : ∀ (b' : Fin 8) (m : Fin 2048) (k : Fin 256), x1 (ix3 b' m k) = Q (ix3 b' m k))
    (h2 : ∀ m : Fin 2048, x2 (ix3 b m cc) = O (ix3 b m cc))
    (h3 : x3 (ix3 b l cc) = X (ix3 b L cc)) :
    x3 (ix3 b l cc) + ∑ m : Fin 2048, softmax8 (fun b' => ∑ k : Fin 256, x0 (ix3 b' l k) * x1 (ix3 b' m k)) b * x2 (ix3 b m cc)
      = attend P Q O X b L cc := by
  unfold attend score
  rw [h3]
  refine congrArg (X (ix3 b L cc) + ·) (Finset.sum_congr rfl fun m _ => ?_)
  rw [h2 m]
  refine congrArg (· * O (ix3 b m cc)) (congrArg (fun s => softmax8 s b) (funext fun b' => Finset.sum_congr rfl fun k _ => ?_))
  rw [h0, h1]

/-- What the body leaves in the output block at point `t`, at batch `b`, row `l`, channel `cc`, is the
    formula at row `128 t + l` of the array. -/
theorem point_apply (c : Dev nD) (t : Fin cfg1.N) (b : Fin 8) (l : Fin 128) (cc : Fin 512) (L : Fin 2048)
    (hL : L.val = 128 * t.val + l.val) :
    outsAt1 V c t (ix3 b l cc) = G V c (ix3 b L cc) := by
  unfold outsAt1
  refine (Block.out_block_apply c (grid1.coords t) (ms1_0 t) (hs1_0 t) (ms1_1 t) (hs1_1 t) (ms1_2 t) (hs1_2 t)
    (ms1_3 t) (hs1_3 t) (ms1_4 t) (hs1_4 t) scM1_0 (Memref.isWhole_whole _) (iblk1 V c 0 t) (iblk1 V c 1 t)
    (iblk1 V c 2 t) (iblk1 V c 3 t) b l cc).trans ?_
  exact formula_rows (iblk1 V c 0 t) (iblk1 V c 1 t) (iblk1 V c 2 t) (iblk1 V c 3 t)
    (V c main_v5) (V c main_v6) (V c main_v7) (V c main_arg0) b l cc L
    (fun b' k => blk0 V c t b' l k L hL) (fun b' m k => blk1 V c t b' m k) (fun m => blk2 V c t b m cc)
    (blk3 V c t b l cc L hL)

/-- WHAT POINT `t` WRITES BACK is its block of the formula: the body's block, read row by row, is the formula
    at the rows the output window's rectangle names. -/
theorem flushed_eq (c : Dev nD) (t : Fin cfg1.N) :
    (dat1 V c).flushed 4 t = ((cfg1.win 4).blk t).view.read (Elt Ideal) (G V c) := by
  have hN : cfg1.N = 16 := N_1
  have ht : t.val < cfg1.N := t.isLt
  obtain ⟨-, -, -, -, -, -, -, -, -, -, -, -, e0, e1, e2⟩ := idx_facts t
  show (cfg1.win 4).cut (grid1.coords t) ((dat1 V c).after 4 t) = _
  rw [after1_4]
  refine funext fun (y : S8x128x512.Idx) => ?_
  obtain ⟨b, l, cc, rfl⟩ : ∃ (b : Fin 8) (l : Fin 128) (cc : Fin 512), y = ix3 b l cc :=
    ⟨y 0, y 1, y 2, eq_ix3 y⟩
  have hl : 128 * t.val + l.val < 2048 := by have := l.isLt; omega
  refine (point_apply V c t b l cc ⟨128 * t.val + l.val, hl⟩ rfl).trans ?_
  rw [View.read_apply]
  show G V c (ix3 b ⟨128 * t.val + l.val, hl⟩ cc) = G V c (((cfg1.win 4).blk t).view.emb (ix3 b l cc))
  refine congrArg (G V c) (funext fun a => Fin.ext ?_)
  match a with
  | ⟨0, _⟩ => show b.val = win1_4.index t (0 : Fin 3) * 8 + 1 * b.val; omega
  | ⟨1, _⟩ => show 128 * t.val + l.val = win1_4.index t (1 : Fin 3) * 128 + 1 * l.val; omega
  | ⟨2, _⟩ => show cc.val = win1_4.index t (2 : Fin 3) * 512 + 1 * cc.val; omega

/-! ## The sixteen blocks tile the array -/

/-- An index of the array is in point `t`'s block iff each coordinate is in the block's range on its axis. -/
theorem mem_blk (t : Fin cfg1.N) (i : S8x2048x512.Idx) :
    i ∈ ((cfg1.win 4).blk t).view.set ↔ ∀ a : Fin 3, win1_4.index t a * S8x128x512.size a ≤ (i a).val
      ∧ (i a).val < win1_4.index t a * S8x128x512.size a + S8x128x512.size a := by
  show i ∈ ((View.whole main_v8).slice (win1_4.rect t)).set ↔ _
  rw [View.set_slice_whole, Rect.mem_set_unit]
  exact Iff.rfl

/-- Row `r` of the array lies in the block of point `r / 128`, and every point writes its block back. -/
theorem cover (i : S8x2048x512.Idx) :
    ∃ t : Fin cfg1.N, (cfg1.win 4).flush t = true ∧ i ∈ ((cfg1.win 4).blk t).view.set := by
  have hN : cfg1.N = 16 := N_1
  have h0 : (i 0).val < 8 := (i 0).isLt
  have h1 : (i 1).val < 2048 := (i 1).isLt
  have h2 : (i 2).val < 512 := (i 2).isLt
  obtain ⟨t, ht⟩ : ∃ t : Fin cfg1.N, t.val = (i 1).val / 128 := ⟨⟨(i 1).val / 128, by omega⟩, rfl⟩
  obtain ⟨-, -, -, -, -, -, -, -, -, -, -, -, e0, e1, e2⟩ := idx_facts t
  refine ⟨t, flush1_4 t, ?_⟩
  rw [mem_blk]
  intro a
  match a with
  | ⟨0, _⟩ => show win1_4.index t (0 : Fin 3) * 8 ≤ (i 0).val ∧ (i 0).val < win1_4.index t (0 : Fin 3) * 8 + 8; omega
  | ⟨1, _⟩ => show win1_4.index t (1 : Fin 3) * 128 ≤ (i 1).val ∧ (i 1).val < win1_4.index t (1 : Fin 3) * 128 + 128; omega
  | ⟨2, _⟩ => show win1_4.index t (2 : Fin 3) * 512 ≤ (i 2).val ∧ (i 2).val < win1_4.index t (2 : Fin 3) * 512 + 512; omega

/-! ## The array after the region -/

/-- The result array, after the region's sixteen write-backs, holds the attention formula of the four arrays the
    region was entered with. -/
theorem region1_array (c : Dev nD) :
    (dat1 (F := Ideal) V c).arrAt 4 cfg1.N
      = fun j => attend (V c main_v5 : A3 8 2048 256) (V c main_v6 : A3 8 2048 256) (V c main_v7 : A3 8 2048 512)
          (V c main_arg0 : A3 8 2048 512) (j 0) (j 1) (j 2) :=
  (dat1 V c).arrAt_eq_of_cover 4 (G V c) (fun t _ => flushed_eq V c t) cover

end Cert.NonLocal.Arr

end
-- ==== Proof.Projections.lean ====
/-
  The three per-position linear layers, from the launch to the second region's entry.

  The program flattens the input [8, 2048, 512] to 16384 rows of 512 channels, lays each bias out as a one-row
  matrix, and runs one region of sixteen points. Point `t` takes rows `1024·t … 1024·t + 1023` of the flat input and
  stores, for each of the three layers, that block of rows times the whole weight matrix plus the bias row
  (every rounding step is the identity on the extended reals, the accumulator starts at zero). The sixteen blocks
  tile each flat output, so each flat output is ONE function of the flat input, the weights and the bias:
  row `R`, channel `i` ↦ (∑ k, input R k · W k i) + bias i. Viewed back by batch and position, row
  `2048·b + l` is position `l` of batch `b`, which is the specification's linear layer. The input itself is
  never written on the way.
-/
import proofs.«149326_j8409545965719_2_alg».proof.Proof.Gen.KernelIdeal.Frame
import proofs.«149326_j8409545965719_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.NonLocal.Proj

open Idealize.ShloMosaic Idealize.ShloMosaic.ValueIdx Idealize.ShloMosaic.TcCoe
open Cert.KernelIdeal Cert.KernelIdeal.Gen Cert.NonLocal
open scoped BigOperators

section Blocks

/-! # The first region's three output arrays, as functions of what the region finds -/

/-! The first projection's block product at an index: output row `r` only meets row `r` of the left block, output column `i`
    only column `i` of the right one, and the contraction index is the shared coordinate. -/
theorem lhs2_row (j : S1024x256.Idx) (q : dot_S1024x512_S512x256_S1024x256_1_0_0_1_n_n.contr.Idx) :
    (dot_S1024x512_S512x256_S1024x256_1_0_0_1_n_n.lhsIdx j q 0).val = (j 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem rhs2_col (j : S1024x256.Idx) (q : dot_S1024x512_S512x256_S1024x256_1_0_0_1_n_n.contr.Idx) :
    (dot_S1024x512_S512x256_S1024x256_1_0_0_1_n_n.rhsIdx j q 1).val = (j 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The value the body stores for the first projection, at row `r` and channel `i` of the block: the row of the input
    block times the column of the weights, plus the bias of that channel. Every rounding step is the identity on
    the extended reals, and the accumulator starts at zero. -/
theorem pay2_apply (x0 : Vec Ideal S1024x512 .f32) (x1 : Vec Ideal S512x256 .f32) (x2 : Vec Ideal S1x256 .f32)
    (r : Fin 1024) (i : Fin 256) :
    k0_pay2 (F := Ideal) x0 x1 x2 (ix2 r i)
      = (∑ k : Fin 512, x0 (ix2 r k) * x1 (ix2 k i)) + x2 (ix2 (0 : Fin 1) i) := by
  unfold k0_pay2 k0_pay1
  dsimp only
  rw [truncf_apply, addf_apply, shapeCast_self, shapeCast_self, broadcastTo_1b_ab_apply]
  simp only [matmul]
  rw [Ideal.matmul_constant_zero_apply,
    ← Equiv.sum_comp (contrEquiv1 dot_S1024x512_S512x256_S1024x256_1_0_0_1_n_n 512 rfl rfl).symm]
  refine congrArg (· + x2 (ix2 (0 : Fin 1) i)) (Finset.sum_congr rfl fun k _ => ?_)
  have hk := contrEquiv1_symm_val dot_S1024x512_S512x256_S1024x256_1_0_0_1_n_n 512 rfl rfl k
  have el : dot_S1024x512_S512x256_S1024x256_1_0_0_1_n_n.lhsIdx (ix2 r i) ((contrEquiv1 dot_S1024x512_S512x256_S1024x256_1_0_0_1_n_n 512 rfl rfl).symm k) = ix2 r k :=
    funext fun a => Fin.ext (by
      match a with
      | ⟨0, _⟩ => exact lhs2_row _ _
      | ⟨1, _⟩ => exact (dot_S1024x512_S512x256_S1024x256_1_0_0_1_n_n.lhsIdx_val_of_single rfl _ _).trans hk)
  have er : dot_S1024x512_S512x256_S1024x256_1_0_0_1_n_n.rhsIdx (ix2 r i) ((contrEquiv1 dot_S1024x512_S512x256_S1024x256_1_0_0_1_n_n 512 rfl rfl).symm k) = ix2 k i :=
    funext fun a => Fin.ext (by
      match a with
      | ⟨0, _⟩ => exact (dot_S1024x512_S512x256_S1024x256_1_0_0_1_n_n.rhsIdx_val_of_single rfl _ _).trans hk
      | ⟨1, _⟩ => exact rhs2_col _ _)
  rw [truncf_apply, truncf_apply, el, er]

/-! The second projection's block product at an index: output row `r` only meets row `r` of the left block, output column `i`
    only column `i` of the right one, and the contraction index is the shared coordinate. -/
theorem lhs3_row (j : S1024x256.Idx) (q : dot_S1024x512_S512x256_S1024x256_1_0_0_1_n_n.contr.Idx) :
    (dot_S1024x512_S512x256_S1024x256_1_0_0_1_n_n.lhsIdx j q 0).val = (j 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
theorem rhs3_col (j : S1024x256.Idx) (q : dot_S1024x512_S512x256_S1024x256_1_0_0_1_n_n.contr.Idx) :
    (dot_S1024x512_S512x256_S1024x256_1_0_0_1_n_n.rhsIdx j q 1).val = (j 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The value the body stores for the second projection, at row `r` and channel `i` of the block: the row of the input
    block times the column of the weights, plus the bias of that channel. Every rounding step is the identity on
    the extended reals, and the accumulator starts at zero. -/
theorem pay3_apply (x0 : Vec Ideal S1024x512 .f32) (x1 : Vec Ideal S512x256 .f32) (x2 : Vec Ideal S1x256 .f32)
    (r : Fin 1024) (i : Fin 256) :
    k0_pay3 (F := Ideal) x0 x1 x2 (ix2 r i)
      = (∑ k : Fin 512, x0 (ix2 r k) * x1 (ix2 k i)) + x2 (ix2 (0 : Fin 1) i) := by
  unfold k0_pay3 k0_pay1
  dsimp only
  rw [truncf_apply, addf_apply, shapeCast_self, shapeCast_self, broadcastTo_1b_ab_apply]
  simp only [matmul]
  rw [Ideal.matmul_constant_zero_apply,
    ← Equiv.sum_comp (contrEquiv1 dot_S1024x512_S512x256_S1024x256_1_0_0_1_n_n 512 rfl rfl).symm]
  refine congrArg (· + x2 (ix2 (0 : Fin 1) i)) (Finset.sum_congr rfl fun k _ => ?_)
  have hk := contrEquiv1_symm_val dot_S1024x512_S512x256_S1024x256_1_0_0_1_n_n 512 rfl rfl k
  have el : dot_S1024x512_S512x256_S1024x256_1_0_0_1_n_n.lhsIdx (ix2 r i) ((contrEquiv1 dot_S1024x512_S512x256_S1024x256_1_0_0_1_n_n 512 rfl rfl).symm k) = ix2 r k :=
    funext fun a => Fin.ext (by
      match a with
      | ⟨0, _⟩ => exact lhs3_row _ _
      | ⟨1, _⟩ => exact (dot_S1024x512_S512x256_S1024x256_1_0_0_1_n_n.lhsIdx_val_of_single rfl _ _).trans hk)
  have er : dot_S1024x512_S512x256_S1024x256_1_0_0_1_n_n.rhsIdx (ix2 r i) ((contrEquiv1 dot_S1024x512_S512x256_S1024x256_1_0_0_1_n_n 512 rfl rfl).symm k) = ix2 k i :=
    funext fun a => Fin.ext (by
      match a with
      | ⟨0, _⟩ => exact (dot_S1024x512_S512x256_S1024x256_1_0_0_1_n_n.rhsIdx_val_of_single rfl _ _).trans hk
      | ⟨1, _⟩ => exact rhs3_col _ _)
  rw [truncf_apply, truncf_apply, el, er]

/-! The third projection's block product at an index: output row `r` only meets row `r` of the left block, output column `i`
    only column `i` of the right one, and the contraction index is the shared coordinate. -/
theorem lhs4_row (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem rhs4_col (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The value the body stores for the third projection, at row `r` and channel `i` of the block: the row of the input
    block times the column of the weights, plus the bias of that channel. Every rounding step is the identity on
    the extended reals, and the accumulator starts at zero. -/
theorem pay4_apply (x0 : Vec Ideal S1024x512 .f32) (x1 : Vec Ideal S512x512 .f32) (x2 : Vec Ideal S1x512 .f32)
    (r : Fin 1024) (i : Fin 512) :
    k0_pay4 (F := Ideal) x0 x1 x2 (ix2 r i)
      = (∑ k : Fin 512, x0 (ix2 r k) * x1 (ix2 k i)) + x2 (ix2 (0 : Fin 1) i) := by
  unfold k0_pay4 k0_pay1
  dsimp only
  rw [truncf_apply, addf_apply, shapeCast_self, shapeCast_self, broadcastTo_1b_ab_apply]
  simp only [matmul]
  rw [Ideal.matmul_constant_zero_apply,
    ← Equiv.sum_comp (contrEquiv1 dot_S1024x512_S512x512_S1024x512_1_0_0_1_n_n 512 rfl rfl).symm]
  refine congrArg (· + x2 (ix2 (0 : Fin 1) i)) (Finset.sum_congr rfl fun k _ => ?_)
  have hk := contrEquiv1_symm_val dot_S1024x512_S512x512_S1024x512_1_0_0_1_n_n 512 rfl rfl k
  have el : dot_S1024x512_S512x512_S1024x512_1_0_0_1_n_n.lhsIdx (ix2 r i) ((contrEquiv1 dot_S1024x512_S512x512_S1024x512_1_0_0_1_n_n 512 rfl rfl).symm k) = ix2 r k :=
    funext fun a => Fin.ext (by
      match a with
      | ⟨0, _⟩ => exact lhs4_row _ _
      | ⟨1, _⟩ => exact (dot_S1024x512_S512x512_S1024x512_1_0_0_1_n_n.lhsIdx_val_of_single rfl _ _).trans hk)
  have er : dot_S1024x512_S512x512_S1024x512_1_0_0_1_n_n.rhsIdx (ix2 r i) ((contrEquiv1 dot_S1024x512_S512x512_S1024x512_1_0_0_1_n_n 512 rfl rfl).symm k) = ix2 k i :=
    funext fun a => Fin.ext (by
      match a with
      | ⟨0, _⟩ => exact (dot_S1024x512_S512x512_S1024x512_1_0_0_1_n_n.rhsIdx_val_of_single rfl _ _).trans hk
      | ⟨1, _⟩ => exact rhs4_col _ _)
  rw [truncf_apply, truncf_apply, el, er]

theorem hz : (![0, 0] : Fin 2 → Nat) = fun _ => 0 := funext fun a => by fin_cases a <;> rfl

/-! The block indices of the region's windows at each of its sixteen points, decided once over the grid: the input
    rows and the three outputs move one block of 1024 rows per point; the weights and the bias rows stay at block
    zero. -/
theorem widx0 : ∀ t : Fin cfg0.N, win0_0.index t (0 : Fin 2) = t.val ∧ win0_0.index t (1 : Fin 2) = 0 :=
  (by decide +kernel : ∀ t : Fin grid0.N, _)
theorem widx1 : ∀ t : Fin cfg0.N, win0_1.index t (0 : Fin 2) = 0 ∧ win0_1.index t (1 : Fin 2) = 0 :=
  (by decide +kernel : ∀ t : Fin grid0.N, _)
theorem widx2 : ∀ t : Fin cfg0.N, win0_2.index t (0 : Fin 2) = 0 ∧ win0_2.index t (1 : Fin 2) = 0 :=
  (by decide +kernel : ∀ t : Fin grid0.N, _)
theorem widx3 : ∀ t : Fin cfg0.N, win0_3.index t (0 : Fin 2) = 0 ∧ win0_3.index t (1 : Fin 2) = 0 :=
  (by decide +kernel : ∀ t : Fin grid0.N, _)
theorem widx4 : ∀ t : Fin cfg0.N, win0_4.index t (0 : Fin 2) = 0 ∧ win0_4.index t (1 : Fin 2) = 0 :=
  (by decide +kernel : ∀ t : Fin grid0.N, _)
theorem widx5 : ∀ t : Fin cfg0.N, win0_5.index t (0 : Fin 2) = 0 ∧ win0_5.index t (1 : Fin 2) = 0 :=
  (by decide +kernel : ∀ t : Fin grid0.N, _)
theorem widx6 : ∀ t : Fin cfg0.N, win0_6.index t (0 : Fin 2) = 0 ∧ win0_6.index t (1 : Fin 2) = 0 :=
  (by decide +kernel : ∀ t : Fin grid0.N, _)
theorem widx7 : ∀ t : Fin cfg0.N, win0_7.index t (0 : Fin 2) = t.val ∧ win0_7.index t (1 : Fin 2) = 0 :=
  (by decide +kernel : ∀ t : Fin grid0.N, _)
theorem widx8 : ∀ t : Fin cfg0.N, win0_8.index t (0 : Fin 2) = t.val ∧ win0_8.index t (1 : Fin 2) = 0 :=
  (by decide +kernel : ∀ t : Fin grid0.N, _)
theorem widx9 : ∀ t : Fin cfg0.N, win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b)) (c : Dev nD)

/-- The input window's block at point `t` is rows `1024·t … 1024·t + 1023` of the flattened input. -/
theorem blk0_apply (t : Fin cfg0.N) (r : Fin 1024) (k : Fin 512) (R : Fin 16384) (hR : R.val = 1024 * t.val + r.val) :
    (iblk0 V c 0 t : Vec Ideal S1024x512 .f32) (ix2 r k) = (V c main_v0 : S16384x512.Idx → EReal) (ix2 R k) := by
  obtain ⟨e0, e1⟩ := widx0 t
  unfold iblk0
  rw [View.read_apply]
  show V c main_v0 _ = V c main_v0 _
  congr 1
  funext a; apply Fin.ext
  match a with
  | ⟨0, _⟩ => show win0_0.index t 0 * 1024 + 1 * r.val = R.val; rw [e0, hR]; omega
  | ⟨1, _⟩ => show win0_0.index t 1 * 512 + 1 * k.val = k.val; rw [e1]; omega

/-- The first projection's weight window holds the whole weight matrix at every point. -/
theorem blk1_apply (t : Fin cfg0.N) (k : Fin 512) (i : Fin 256) :
    (iblk0 V c 1 t : Vec Ideal S512x256 .f32) (ix2 k i) = (V c main_arg1 : S512x256.Idx → EReal) (ix2 k i) := by
  obtain ⟨e0, e1⟩ := widx1 t
  unfold iblk0
  rw [View.read_apply]
  show V c main_arg1 _ = V c main_arg1 _
  congr 1
  funext a; apply Fin.ext
  match a with
  | ⟨0, _⟩ => show win0_1.index t 0 * 512 + 1 * k.val = k.val; rw [e0]; omega
  | ⟨1, _⟩ => show win0_1.index t 1 * 256 + 1 * i.val = i.val; rw [e1]; omega

/-- A bias window holds its whole one-row matrix at every point. -/
theorem blk2_apply (t : Fin cfg0.N) (i : Fin 256) :
    (iblk0 V c 2 t : Vec Ideal S1x256 .f32) (ix2 (0 : Fin 1) i) = (V c main_v1 : S1x256.Idx → EReal) (ix2 (0 : Fin 1) i) := by
  obtain ⟨e0, e1⟩ := widx2 t
  unfold iblk0
  rw [View.read_apply]
  show V c main_v1 _ = V c main_v1 _
  congr 1
  funext a; apply Fin.ext
  match a with
  | ⟨0, _⟩ => show win0_2.index t 0 * 1 + 1 * 0 = 0; rw [e0]
  | ⟨1, _⟩ => show win0_2.index t 1 * 256 + 1 * i.val = i.val; rw [e1]; omega

/-- The second projection's weight window holds the whole weight matrix at every point. -/
theorem blk3_apply (t : Fin cfg0.N) (k : Fin 512) (i : Fin 256) :
    (iblk0 V c 3 t : Vec Ideal S512x256 .f32) (ix2 k i) = (V c main_arg3 : S512x256.Idx → EReal) (ix2 k i) := by
  obtain ⟨e0, e1⟩ := widx3 t
  unfold iblk0
  rw [View.read_apply]
  show V c main_arg3 _ = V c main_arg3 _
  congr 1
  funext a; apply Fin.ext
  match a with
  | ⟨0, _⟩ => show win0_3.index t 0 * 512 + 1 * k.val = k.val; rw [e0]; omega
  | ⟨1, _⟩ => show win0_3.index t 1 * 256 + 1 * i.val = i.val; rw [e1]; omega

/-- A bias window holds its whole one-row matrix at every point. -/
theorem blk4_apply (t : Fin cfg0.N) (i : Fin 256) :
    (iblk0 V c 4 t : Vec Ideal S1x256 .f32) (ix2 (0 : Fin 1) i) = (V c main_v2 : S1x256.Idx → EReal) (ix2 (0 : Fin 1) i) := by
  obtain ⟨e0, e1⟩ := widx4 t
  unfold iblk0
  rw [View.read_apply]
  show V c main_v2 _ = V c main_v2 _
  congr 1
  funext a; apply Fin.ext
  match a with
  | ⟨0, _⟩ => show win0_4.index t 0 * 1 + 1 * 0 = 0; rw [e0]
  | ⟨1, _⟩ => show win0_4.index t 1 * 256 + 1 * i.val = i.val; rw [e1]; omega

/-- The third projection's weight window holds the whole weight matrix at every point. -/
theorem blk5_apply (t : Fin cfg0.N) (k : Fin 512) (i : Fin 512) :
    (iblk0 V c 5 t : Vec Ideal S512x512 .f32) (ix2 k i) = (V c main_arg5 : S512x512.Idx → EReal) (ix2 k i) := by
  obtain ⟨e0, e1⟩ := widx5 t
  unfold iblk0
  rw [View.read_apply]
  show V c main_arg5 _ = V c main_arg5 _
  congr 1
  funext a; apply Fin.ext
  match a with
  | ⟨0, _⟩ => show win0_5.index t 0 * 512 + 1 * k.val = k.val; rw [e0]; omega
  | ⟨1, _⟩ => show win0_5.index t 1 * 512 + 1 * i.val = i.val; rw [e1]; omega

/-- A bias window holds its whole one-row matrix at every point. -/
theorem blk6_apply (t : Fin cfg0.N) (i : Fin 512) :
    (iblk0 V c 6 t : Vec Ideal S1x512 .f32) (ix2 (0 : Fin 1) i) = (V c main_v3 : S1x512.Idx → EReal) (ix2 (0 : Fin 1) i) := by
  obtain ⟨e0, e1⟩ := widx6 t
  unfold iblk0
  rw [View.read_apply]
  show V c main_v3 _ = V c main_v3 _
  congr 1
  funext a; apply Fin.ext
  match a with
  | ⟨0, _⟩ => show win0_6.index t 0 * 1 + 1 * 0 = 0; rw [e0]
  | ⟨1, _⟩ => show win0_6.index t 1 * 512 + 1 * i.val = i.val; rw [e1]; omega

/-- One linear layer on the flattened input: row `R` of the flat input times the column of the weights, plus the
    bias of that channel (the bias stored as a one-row matrix). -/
def flatProj {n : Nat} (Xf : A2 16384 512) (W : A2 512 n) (β : A2 1 n) : A2 16384 n :=
  fun j => (∑ k : Fin 512, Xf (ix2 (j 0) k) * W (ix2 k (j 1))) + β (ix2 (0 : Fin 1) (j 1))

theorem flatProj_ix2 {n : Nat} (Xf : A2 16384 512) (W : A2 512 n) (β : A2 1 n) (R : Fin 16384) (i : Fin n) :
    flatProj Xf W β (ix2 R i) = (∑ k : Fin 512, Xf (ix2 R k) * W (ix2 k i)) + β (ix2 (0 : Fin 1) i) := rfl

/-! ## The first projection's output window -/

/-- The first projection's stored block is a given function of the block index as soon as it is so entry by entry. -/
theorem pay2_ext (x0 : Vec Ideal S1024x512 .f32) (x1 : Vec Ideal S512x256 .f32) (x2 : Vec Ideal S1x256 .f32)
    (G : S1024x256.Idx → EReal)
    (h : ∀ (r : Fin 1024) (i : Fin 256),
      (∑ k : Fin 512, x0 (ix2 r k) * x1 (ix2 k i)) + x2 (ix2 (0 : Fin 1) i) = G (ix2 r i)) :
    (k0_pay2 (F := Ideal) x0 x1 x2 : S1024x256.Idx → EReal) = G :=
  funext fun y => by
    obtain ⟨r, i, rfl⟩ : ∃ (r : Fin 1024) (i : Fin 256), y = ix2 r i := ⟨y 0, y 1, eq_ix2 y⟩
    exact (pay2_apply x0 x1 x2 r i).trans (h r i)

/-- Entry `(r, i)` of the block point `t` writes back sits at row `1024·t + r`, column `i` of the flat output. -/
theorem emb7 (t : Fin cfg0.N) (r : Fin 1024) (i : Fin 256) (R : Fin 16384) (hR : R.val = 1024 * t.val + r.val) :
    (((cfg0.win 7).blk t).view.emb (ix2 r i) : S16384x256.Idx) = ix2 R i := by
  obtain ⟨e0, e1⟩ := widx7 t
  funext a; apply Fin.ext
  match a with
  | ⟨0, _⟩ => show win0_7.index t 0 * 1024 + 1 * r.val = R.val; rw [e0, hR]; omega
  | ⟨1, _⟩ => show win0_7.index t 1 * 256 + 1 * i.val = i.val; rw [e1]; omega

/-- What point `t` writes back is block `t` of the first projection of the flat input: the body's one store holds
    the block product plus the bias row, the input block is the flat input's rows of that point, and the weights
    and the bias are read whole. -/
theorem flushed7_eq (t : Fin cfg0.N) :
    (dat0 V c).flushed 7 t = ((cfg0.win 7).blk t).view.read (Elt Ideal)
      (flatProj (V c main_v0) (V c main_arg1) (V c main_v1)) := by
  have hN : cfg0.N = 16 := N_0
  show (cfg0.win 7).cut (grid0.coords t) ((dat0 V c).after 7 t) = _
  rw [after0_7]
  unfold out0_7
  rw [View.canon_unit_zero hz]
  simp only [View.ld_unit_zero (S := S1024x512) hz, View.ld_unit_zero (S := S512x256) hz, View.ld_unit_zero (S := S1x256) hz]
  show (k0_pay2 (F := Ideal) (iblk0 V c 0 t) (iblk0 V c 1 t) (iblk0 V c 2 t) : S1024x256.Idx → EReal)
    = fun y => flatProj (V c main_v0) (V c main_arg1) (V c main_v1) (((cfg0.win 7).blk t).view.emb y)
  refine pay2_ext _ _ _ _ fun r i => ?_
  have ht : t.val < 16 := hN ▸ t.isLt
  have hR : (⟨1024 * t.val + r.val, by have := r.isLt; omega⟩ : Fin 16384).val = 1024 * t.val + r.val := rfl
  rw [emb7 t r i _ hR, flatProj_ix2, blk2_apply V c t i]
  exact congrArg (· + _) (Finset.sum_congr rfl fun k _ => by rw [blk0_apply V c t r k _ hR, blk1_apply V c t k i])

/-- Membership in the block of rows a point writes back: coordinate by coordinate, inside the block's range. -/
theorem mem_blk7 (t : Fin cfg0.N) (j : S16384x256.Idx) :
    j ∈ ((cfg0.win 7).blk t).view.set ↔ ∀ a : Fin 2, win0_7.index t a * S1024x256.size a ≤ (j a).val
      ∧ (j a).val < win0_7.index t a * S1024x256.size a + S1024x256.size a := by
  show j ∈ ((View.whole main_v4_0).slice (win0_7.rect t)).set ↔ _
  rw [View.set_slice_whole, Rect.mem_set_unit]
  exact Iff.rfl

/-- Every row of the flat output lies in the block of the point numbered by the row divided by 1024. -/
theorem cover7 (j : S16384x256.Idx) :
    ∃ t : Fin cfg0.N, (cfg0.win 7).flush t = true ∧ j ∈ ((cfg0.win 7).blk t).view.set := by
  have hN : cfg0.N = 16 := N_0
  have h0 : (j 0).val < 16384 := (j 0).isLt
  have h1 : (j 1).val < 256 := (j 1).isLt
  obtain ⟨t, ht⟩ : ∃ t : Fin cfg0.N, t.val = (j 0).val / 1024 := ⟨⟨(j 0).val / 1024, by omega⟩, rfl⟩
  refine ⟨t, flush0_7 t, ?_⟩
  rw [mem_blk7]
  obtain ⟨e0, e1⟩ := widx7 t
  intro a
  match a with
  | ⟨0, _⟩ =>
    show win0_7.index t 0 * 1024 ≤ (j 0).val ∧ (j 0).val < win0_7.index t 0 * 1024 + 1024
    rw [e0]; omega
  | ⟨1, _⟩ =>
    show win0_7.index t 1 * 256 ≤ (j 1).val ∧ (j 1).val < win0_7.index t 1 * 256 + 256
    rw [e1]; omega

/-- After the region the first output holds the first projection of the flat input, whole. -/
theorem arr7 : (dat0 V c).arrAt 7 cfg0.N = flatProj (V c main_v0) (V c main_arg1) (V c main_v1) :=
  (dat0 V c).arrAt_eq_of_cover 7 _ (fun t _ => flushed7_eq V c t) cover7

/-! ## The second projection's output window -/

/-- The second projection's stored block is a given function of the block index as soon as it is so entry by entry. -/
theorem pay3_ext (x0 : Vec Ideal S1024x512 .f32) (x1 : Vec Ideal S512x256 .f32) (x2 : Vec Ideal S1x256 .f32)
    (G : S1024x256.Idx → EReal)
    (h : ∀ (r : Fin 1024) (i : Fin 256),
      (∑ k : Fin 512, x0 (ix2 r k) * x1 (ix2 k i)) + x2 (ix2 (0 : Fin 1) i) = G (ix2 r i)) :
    (k0_pay3 (F := Ideal) x0 x1 x2 : S1024x256.Idx → EReal) = G :=
  funext fun y => by
    obtain ⟨r, i, rfl⟩ : ∃ (r : Fin 1024) (i : Fin 256), y = ix2 r i := ⟨y 0, y 1, eq_ix2 y⟩
    exact (pay3_apply x0 x1 x2 r i).trans (h r i)

/-- Entry `(r, i)` of the block point `t` writes back sits at row `1024·t + r`, column `i` of the flat output. -/
theorem emb8 (t : Fin cfg0.N) (r : Fin 1024) (i : Fin 256) (R : Fin 16384) (hR : R.val = 1024 * t.val + r.val) :
    (((cfg0.win 8).blk t).view.emb (ix2 r i) : S16384x256.Idx) = ix2 R i := by
  obtain ⟨e0, e1⟩ := widx8 t
  funext a; apply Fin.ext
  match a with
  | ⟨0, _⟩ => show win0_8.index t 0 * 1024 + 1 * r.val = R.val; rw [e0, hR]; omega
  | ⟨1, _⟩ => show win0_8.index t 1 * 256 + 1 * i.val = i.val; rw [e1]; omega

/-- What point `t` writes back is block `t` of the second projection of the flat input: the body's one store holds
    the block product plus the bias row, the input block is the flat input's rows of that point, and the weights
    and the bias are read whole. -/
theorem flushed8_eq (t : Fin cfg0.N) :
    (dat0 V c).flushed 8 t = ((cfg0.win 8).blk t).view.read (Elt Ideal)
      (flatProj (V c main_v0) (V c main_arg3) (V c main_v2)) := by
  have hN : cfg0.N = 16 := N_0
  show (cfg0.win 8).cut (grid0.coords t) ((dat0 V c).after 8 t) = _
  rw [after0_8]
  unfold out0_8
  rw [View.canon_unit_zero hz]
  simp only [View.ld_unit_zero (S := S1024x512) hz, View.ld_unit_zero (S := S512x256) hz, View.ld_unit_zero (S := S1x256) hz]
  show (k0_pay3 (F := Ideal) (iblk0 V c 0 t) (iblk0 V c 3 t) (iblk0 V c 4 t) : S1024x256.Idx → EReal)
    = fun y => flatProj (V c main_v0) (V c main_arg3) (V c main_v2) (((cfg0.win 8).blk t).view.emb y)
  refine pay3_ext _ _ _ _ fun r i => ?_
  have ht : t.val < 16 := hN ▸ t.isLt
  have hR : (⟨1024 * t.val + r.val, by have := r.isLt; omega⟩ : Fin 16384).val = 1024 * t.val + r.val := rfl
  rw [emb8 t r i _ hR, flatProj_ix2, blk4_apply V c t i]
  exact congrArg (· + _) (Finset.sum_congr rfl fun k _ => by rw [blk0_apply V c t r k _ hR, blk3_apply V c t k i])

/-- Membership in the block of rows a point writes back: coordinate by coordinate, inside the block's range. -/
theorem mem_blk8 (t : Fin cfg0.N) (j : S16384x256.Idx) :
    j ∈ ((cfg0.win 8).blk t).view.set ↔ ∀ a : Fin 2, win0_8.index t a * S1024x256.size a ≤ (j a).val
      ∧ (j a).val < win0_8.index t a * S1024x256.size a + S1024x256.size a := by
  show j ∈ ((View.whole main_v4_1).slice (win0_8.rect t)).set ↔ _
  rw [View.set_slice_whole, Rect.mem_set_unit]
  exact Iff.rfl

/-- Every row of the flat output lies in the block of the point numbered by the row divided by 1024. -/
theorem cover8 (j : S16384x256.Idx) :
    ∃ t : Fin cfg0.N, (cfg0.win 8).flush t = true ∧ j ∈ ((cfg0.win 8).blk t).view.set := by
  have hN : cfg0.N = 16 := N_0
  have h0 : (j 0).val < 16384 := (j 0).isLt
  have h1 : (j 1).val < 256 := (j 1).isLt
  obtain ⟨t, ht⟩ : ∃ t : Fin cfg0.N, t.val = (j 0).val / 1024 := ⟨⟨(j 0).val / 1024, by omega⟩, rfl⟩
  refine ⟨t, flush0_8 t, ?_⟩
  rw [mem_blk8]
  obtain ⟨e0, e1⟩ := widx8 t
  intro a
  match a with
  | ⟨0, _⟩ =>
    show win0_8.index t 0 * 1024 ≤ (j 0).val ∧ (j 0).val < win0_8.index t 0 * 1024 + 1024
    rw [e0]; omega
  | ⟨1, _⟩ =>
    show win0_8.index t 1 * 256 ≤ (j 1).val ∧ (j 1).val < win0_8.index t 1 * 256 + 256
    rw [e1]; omega

/-- After the region the second output holds the second projection of the flat input, whole. -/
theorem arr8 : (dat0 V c).arrAt 8 cfg0.N = flatProj (V c main_v0) (V c main_arg3) (V c main_v2) :=
  (dat0 V c).arrAt_eq_of_cover 8 _ (fun t _ => flushed8_eq V c t) cover8

/-! ## The third projection's output window -/

/-- The third projection's stored block is a given function of the block index as soon as it is so entry by entry. -/
theorem pay4_ext (x0 : Vec Ideal S1024x512 .f32) (x1 : Vec Ideal S512x512 .f32) (x2 : Vec Ideal S1x512 .f32)
    (G : S1024x512.Idx → EReal)
    (h : ∀ (r : Fin 1024) (i : Fin 512),
      (∑ k : Fin 512, x0 (ix2 r k) * x1 (ix2 k i)) + x2 (ix2 (0 : Fin 1) i) = G (ix2 r i)) :
    (k0_pay4 (F := Ideal) x0 x1 x2 : S1024x512.Idx → EReal) = G :=
  funext fun y => by
    obtain ⟨r, i, rfl⟩ : ∃ (r : Fin 1024) (i : Fin 512), y = ix2 r i := ⟨y 0, y 1, eq_ix2 y⟩
    exact (pay4_apply x0 x1 x2 r i).trans (h r i)

/-- Entry `(r, i)` of the block point `t` writes back sits at row `1024·t + r`, column `i` of the flat output. -/
theorem emb9 (t : Fin cfg0.N) (r : Fin 1024) (i : Fin 512) (R : Fin 16384) (hR : R.val = 1024 * t.val + r.val) :
    (((cfg0.win 9).blk t).view.emb (ix2 r i) : S16384x512.Idx) = ix2 R i := by
  obtain ⟨e0, e1⟩ := widx9 t
  funext a; apply Fin.ext
  match a with
  | ⟨0, _⟩ => show win0_9.index t 0 * 1024 + 1 * r.val = R.val; rw [e0, hR]; omega
  | ⟨1, _⟩ => show win0_9.index t 1 * 512 + 1 * i.val = i.val; rw [e1]; omega

/-- What point `t` writes back is block `t` of the third projection of the flat input: the body's one store holds
    the block product plus the bias row, the input block is the flat input's rows of that point, and the weights
    and the bias are read whole. -/
theorem flushed9_eq (t : Fin cfg0.N) :
    (dat0 V c).flushed 9 t = ((cfg0.win 9).blk t).view.read (Elt Ideal)
      (flatProj (V c main_v0) (V c main_arg5) (V c main_v3)) := by
  have hN : cfg0.N = 16 := N_0
  show (cfg0.win 9).cut (grid0.coords t) ((dat0 V c).after 9 t) = _
  rw [after0_9]
  unfold out0_9
  rw [View.canon_unit_zero hz]
  simp only [View.ld_unit_zero (S := S1024x512) hz, View.ld_unit_zero (S := S512x512) hz, View.ld_unit_zero (S := S1x512) hz]
  show (k0_pay4 (F := Ideal) (iblk0 V c 0 t) (iblk0 V c 5 t) (iblk0 V c 6 t) : S1024x512.Idx → EReal)
    = fun y => flatProj (V c main_v0) (V c main_arg5) (V c main_v3) (((cfg0.win 9).blk t).view.emb y)
  refine pay4_ext _ _ _ _ fun r i => ?_
  have ht : t.val < 16 := hN ▸ t.isLt
  have hR : (⟨1024 * t.val + r.val, by have := r.isLt; omega⟩ : Fin 16384).val = 1024 * t.val + r.val := rfl
  rw [emb9 t r i _ hR, flatProj_ix2, blk6_apply V c t i]
  exact congrArg (· + _) (Finset.sum_congr rfl fun k _ => by rw [blk0_apply V c t r k _ hR, blk5_apply V c t k i])

/-- Membership in the block of rows a point writes back: coordinate by coordinate, inside the block's range. -/
theorem mem_blk9 (t : Fin cfg0.N) (j : S16384x512.Idx) :
    j ∈ ((cfg0.win 9).blk t).view.set ↔ ∀ a : Fin 2, win0_9.index t a * S1024x512.size a ≤ (j a).val
      ∧ (j a).val < win0_9.index t a * S1024x512.size a + S1024x512.size a := by
  show j ∈ ((View.whole main_v4_2).slice (win0_9.rect t)).set ↔ _
  rw [View.set_slice_whole, Rect.mem_set_unit]
  exact Iff.rfl

/-- Every row of the flat output lies in the block of the point numbered by the row divided by 1024. -/
theorem cover9 (j : S16384x512.Idx) :
    ∃ t : Fin cfg0.N, (cfg0.win 9).flush t = true ∧ j ∈ ((cfg0.win 9).blk t).view.set := by
  have hN : cfg0.N = 16 := N_0
  have h0 : (j 0).val < 16384 := (j 0).isLt
  have h1 : (j 1).val < 512 := (j 1).isLt
  obtain ⟨t, ht⟩ : ∃ t : Fin cfg0.N, t.val = (j 0).val / 1024 := ⟨⟨(j 0).val / 1024, by omega⟩, rfl⟩
  refine ⟨t, flush0_9 t, ?_⟩
  rw [mem_blk9]
  obtain ⟨e0, e1⟩ := widx9 t
  intro a
  match a with
  | ⟨0, _⟩ =>
    show win0_9.index t 0 * 1024 ≤ (j 0).val ∧ (j 0).val < win0_9.index t 0 * 1024 + 1024
    rw [e0]; omega
  | ⟨1, _⟩ =>
    show win0_9.index t 1 * 512 ≤ (j 1).val ∧ (j 1).val < win0_9.index t 1 * 512 + 512
    rw [e1]; omega

/-- After the region the third output holds the third projection of the flat input, whole. -/
theorem arr9 : (dat0 V c).arrAt 9 cfg0.N = flatProj (V c main_v0) (V c main_arg5) (V c main_v3) :=
  (dat0 V c).arrAt_eq_of_cover 9 _ (fun t _ => flushed9_eq V c t) cover9

end Blocks

section Run

/-! # From the launch to the second region's entry -/

variable (m : (ℓ : Loc nD τ sig) → Buf (Elt Ideal) ℓ) (ρ : Dev nD → PrngReg) (c : Dev nD)

/-! The host reshapes before the first region: the input flattened to rows, each bias laid out as a one-row matrix;
    the weights are untouched. -/
theorem V1_v0 : (V1 (F := Ideal) m ρ c main_v0 : S16384x512.Idx → EReal)
    = shapeCast S16384x512 (m ((c : Thread nD τ).loc main_arg0)) shapeCasts_S8x2048x512_S16384x512 := by
  dsimp only [Gen.V1, Gen.W1, Gen.hostOps0]
  after_results
  rfl
theorem V1_v1 : (V1 (F := Ideal) m ρ c main_v1 : S1x256.Idx → EReal)
    = shapeCast S1x256 (m ((c : Thread nD τ).loc main_arg2)) shapeCasts_S256_S1x256 := by
  dsimp only [Gen.V1, Gen.W1, Gen.hostOps0]
  after_results
  rfl
theorem V1_arg1 : V1 (F := Ideal) m ρ c main_arg1 = m ((c : Thread nD τ).loc main_arg1) := by
  dsimp only [Gen.V1, Gen.W1, Gen.hostOps0]
  after_results
theorem V1_v2 : (V1 (F := Ideal) m ρ c main_v2 : S1x256.Idx → EReal)
    = shapeCast S1x256 (m ((c : Thread nD τ).loc main_arg4)) shapeCasts_S256_S1x256 := by
  dsimp only [Gen.V1, Gen.W1, Gen.hostOps0]
  after_results
  rfl
theorem V1_arg3 : V1 (F := Ideal) m ρ c main_arg3 = m ((c : Thread nD τ).loc main_arg3) := by
  dsimp only [Gen.V1, Gen.W1, Gen.hostOps0]
  after_results
theorem V1_v3 : (V1 (F := Ideal) m ρ c main_v3 : S1x512.Idx → EReal)
    = shapeCast S1x512 (m ((c : Thread nD τ).loc main_arg6)) shapeCasts_S512_S1x512 := by
  dsimp only [Gen.V1, Gen.W1, Gen.hostOps0]
  after_results
  rfl
theorem V1_arg5 : V1 (F := Ideal) m ρ c main_arg5 = m ((c : Thread nD τ).loc main_arg5) := by
  dsimp only [Gen.V1, Gen.W1, Gen.hostOps0]
  after_results

/-- Row `2048·b + l` of the flattened input is position `l` of batch `b`. -/
theorem V1_v0_apply (b : Fin 8) (l : Fin 2048) (k : Fin 512) (R : Fin 16384) (hR : R.val = 2048 * b.val + l.val) :
    (V1 (F := Ideal) m ρ c main_v0 : S16384x512.Idx → EReal) (ix2 R k)
      = (m ((c : Thread nD τ).loc main_arg0) : S8x2048x512.Idx → EReal) (ix3 b l k) := by
  rw [V1_v0]
  refine shapeCast_apply _ _ (ix2 R k) (ix3 b l k) ?_
  rw [Shape.rowMajor_val_two, Shape.rowMajor_val_three]
  show (b.val * 2048 + l.val) * 512 + k.val = R.val * 512 + k.val
  rw [hR]; omega

/-- The first bias laid out as a one-row matrix reads the bias. -/
theorem V1_v1_apply (i : Fin 256) :
    (V1 (F := Ideal) m ρ c main_v1 : S1x256.Idx → EReal) (ix2 (0 : Fin 1) i)
      = (m ((c : Thread nD τ).loc main_arg2) : S256.Idx → EReal) (ix1 i) := by
  rw [V1_v1]
  refine shapeCast_apply _ _ (ix2 (0 : Fin 1) i) (ix1 i) ?_
  rw [Shape.rowMajor_val_two, Shape.rowMajor_val_one]
  show i.val = 0 * 256 + i.val
  omega

/-- The second bias laid out as a one-row matrix reads the bias. -/
theorem V1_v2_apply (i : Fin 256) :
    (V1 (F := Ideal) m ρ c main_v2 : S1x256.Idx → EReal) (ix2 (0 : Fin 1) i)
      = (m ((c : Thread nD τ).loc main_arg4) : S256.Idx → EReal) (ix1 i) := by
  rw [V1_v2]
  refine shapeCast_apply _ _ (ix2 (0 : Fin 1) i) (ix1 i) ?_
  rw [Shape.rowMajor_val_two, Shape.rowMajor_val_one]
  show i.val = 0 * 256 + i.val
  omega

/-- The third bias laid out as a one-row matrix reads the bias. -/
theorem V1_v3_apply (i : Fin 512) :
    (V1 (F := Ideal) m ρ c main_v3 : S1x512.Idx → EReal) (ix2 (0 : Fin 1) i)
      = (m ((c : Thread nD τ).loc main_arg6) : S512.Idx → EReal) (ix1 i) := by
  rw [V1_v3]
  refine shapeCast_apply _ _ (ix2 (0 : Fin 1) i) (ix1 i) ?_
  rw [Shape.rowMajor_val_two, Shape.rowMajor_val_one]
  show i.val = 0 * 512 + i.val
  omega

/-! ## The first projection -/

/-- The host reshape after the first region views the first flat output by batch and position. -/
theorem V3_v5 : (V3 (F := Ideal) m ρ c main_v5 : S8x2048x256.Idx → EReal)
    = shapeCast S8x2048x256 (W2 (F := Ideal) m ρ c (Proc.devRef .tc main_v4_0)) shapeCasts_S16384x256_S8x2048x256 := by
  dsimp only [Gen.V3, Gen.W3, Gen.hostOps1]
  after_results
  rfl

/-- The first flat output after the region, in terms of what the region found. -/
theorem W2_v4_0 : (W2 (F := Ideal) m ρ c (Proc.devRef .tc main_v4_0) : S16384x256.Idx → EReal)
    = flatProj (V1 m ρ c main_v0) (V1 m ρ c main_arg1) (V1 m ρ c main_v1) :=
  (W2_arr m ρ c 7).trans (arr7 (V1 m ρ) c)

/-- The first projection as the second region finds it is the specification's linear layer of the launch arrays:
    entry `(b, l, i)` is row `2048·b + l` of the flat output, whose input row is position `l` of batch `b`. -/
theorem entry_P : (V3 (F := Ideal) m ρ c main_v5 : A3 8 2048 256)
    = projected (m ((c : Thread nD τ).loc main_arg0)) (m ((c : Thread nD τ).loc main_arg1))
        (m ((c : Thread nD τ).loc main_arg2)) := by
  funext j
  obtain ⟨b, l, i, rfl⟩ : ∃ (b : Fin 8) (l : Fin 2048) (i : Fin 256), j = ix3 b l i := ⟨j 0, j 1, j 2, eq_ix3 j⟩
  have hb := b.isLt
  have hl := l.isLt
  obtain ⟨R, hR⟩ : ∃ R : Fin 16384, R.val = 2048 * b.val + l.val := ⟨⟨2048 * b.val + l.val, by omega⟩, rfl⟩
  rw [projected_ix3, V3_v5, W2_v4_0]
  refine (shapeCast_apply _ _ (ix3 b l i) (ix2 R i) ?_).trans ?_
  · rw [Shape.rowMajor_val_two, Shape.rowMajor_val_three]
    show R.val * 256 + i.val = (b.val * 2048 + l.val) * 256 + i.val
    rw [hR]; omega
  rw [flatProj_ix2, V1_v1_apply, V1_arg1]
  unfold linear
  exact congrArg (· + _) (Finset.sum_congr rfl fun k _ => by rw [V1_v0_apply m ρ c b l k R hR])

/-! ## The second projection -/

/-- The host reshape after the first region views the second flat output by batch and position. -/
theorem V3_v6 : (V3 (F := Ideal) m ρ c main_v6 : S8x2048x256.Idx → EReal)
    = shapeCast S8x2048x256 (W2 (F := Ideal) m ρ c (Proc.devRef .tc main_v4_1)) shapeCasts_S16384x256_S8x2048x256 := by
  dsimp only [Gen.V3, Gen.W3, Gen.hostOps1]
  after_results
  rfl

/-- The second flat output after the region, in terms of what the region found. -/
theorem W2_v4_1 : (W2 (F := Ideal) m ρ c (Proc.devRef .tc main_v4_1) : S16384x256.Idx → EReal)
    = flatProj (V1 m ρ c main_v0) (V1 m ρ c main_arg3) (V1 m ρ c main_v2) :=
  (W2_arr m ρ c 8).trans (arr8 (V1 m ρ) c)

/-- The second projection as the second region finds it is the specification's linear layer of the launch arrays:
    entry `(b, l, i)` is row `2048·b + l` of the flat output, whose input row is position `l` of batch `b`. -/
theorem entry_Q : (V3 (F := Ideal) m ρ c main_v6 : A3 8 2048 256)
    = projected (m ((c : Thread nD τ).loc main_arg0)) (m ((c : Thread nD τ).loc main_arg3))
        (m ((c : Thread nD τ).loc main_arg4)) := by
  funext j
  obtain ⟨b, l, i, rfl⟩ : ∃ (b : Fin 8) (l : Fin 2048) (i : Fin 256), j = ix3 b l i := ⟨j 0, j 1, j 2, eq_ix3 j⟩
  have hb := b.isLt
  have hl := l.isLt
  obtain ⟨R, hR⟩ : ∃ R : Fin 16384, R.val = 2048 * b.val + l.val := ⟨⟨2048 * b.val + l.val, by omega⟩, rfl⟩
  rw [projected_ix3, V3_v6, W2_v4_1]
  refine (shapeCast_apply _ _ (ix3 b l i) (ix2 R i) ?_).trans ?_
  · rw [Shape.rowMajor_val_two, Shape.rowMajor_val_three]
    show R.val * 256 + i.val = (b.val * 2048 + l.val) * 256 + i.val
    rw [hR]; omega
  rw [flatProj_ix2, V1_v2_apply, V1_arg3]
  unfold linear
  exact congrArg (· + _) (Finset.sum_congr rfl fun k _ => by rw [V1_v0_apply m ρ c b l k R hR])

/-! ## The third projection -/

/-- The host reshape after the first region views the third flat output by batch and position. -/
theorem V3_v7 : (V3 (F := Ideal) m ρ c main_v7 : S8x2048x512.Idx → EReal)
    = shapeCast S8x2048x512 (W2 (F := Ideal) m ρ c (Proc.devRef .tc main_v4_2)) shapeCasts_S16384x512_S8x2048x512 := by
  dsimp only [Gen.V3, Gen.W3, Gen.hostOps1]
  after_results
  rfl

/-- The third flat output after the region, in terms of what the region found. -/
theorem W2_v4_2 : (W2 (F := Ideal) m ρ c (Proc.devRef .tc main_v4_2) : S16384x512.Idx → EReal)
    = flatProj (V1 m ρ c main_v0) (V1 m ρ c main_arg5) (V1 m ρ c main_v3) :=
  (W2_arr m ρ c 9).trans (arr9 (V1 m ρ) c)

/-- The third projection as the second region finds it is the specification's linear layer of the launch arrays:
    entry `(b, l, i)` is row `2048·b + l` of the flat output, whose input row is position `l` of batch `b`. -/
theorem entry_O : (V3 (F := Ideal) m ρ c main_v7 : A3 8 2048 512)
    = projected (m ((c : Thread nD τ).loc main_arg0)) (m ((c : Thread nD τ).loc main_arg5))
        (m ((c : Thread nD τ).loc main_arg6)) := by
  funext j
  obtain ⟨b, l, i, rfl⟩ : ∃ (b : Fin 8) (l : Fin 2048) (i : Fin 512), j = ix3 b l i := ⟨j 0, j 1, j 2, eq_ix3 j⟩
  have hb := b.isLt
  have hl := l.isLt
  obtain ⟨R, hR⟩ : ∃ R : Fin 16384, R.val = 2048 * b.val + l.val := ⟨⟨2048 * b.val + l.val, by omega⟩, rfl⟩
  rw [projected_ix3, V3_v7, W2_v4_2]
  refine (shapeCast_apply _ _ (ix3 b l i) (ix2 R i) ?_).trans ?_
  · rw [Shape.rowMajor_val_two, Shape.rowMajor_val_three]
    show R.val * 512 + i.val = (b.val * 2048 + l.val) * 512 + i.val
    rw [hR]; omega
  rw [flatProj_ix2, V1_v3_apply, V1_arg5]
  unfold linear
  exact congrArg (· + _) (Finset.sum_congr rfl fun k _ => by rw [V1_v0_apply m ρ c b l k R hR])

/-! ## The residual input -/

/-- The input array reaches the second region as launched: no host reshape writes it and it is no window of the
    first region. -/
theorem entry_X : V3 (F := Ideal) m ρ c main_arg0 = m ((c : Thread nD τ).loc main_arg0) := by
  have h3 : V3 (F := Ideal) m ρ c main_arg0 = W2 (F := Ideal) m ρ c (Proc.devRef .tc main_arg0) := by
    dsimp only [Gen.V3, Gen.W3, Gen.hostOps1]
    after_results
  have h1 : W1 (F := Ideal) m ρ c (Proc.devRef .tc main_arg0) = m ((c : Thread nD τ).loc main_arg0) := by
    dsimp only [Gen.W1, Gen.hostOps0]
    after_results
  rw [h3, W2_of_ne m ρ c main_arg0 (by decide), h1]

end Run

end Cert.NonLocal.Proj

end
-- ==== Proof.lean ====
/-
  The non-local block kernel against its jnp reference, over the extended reals.

  Both programs take inputs `X` [8, 2048, 512] and three per-position linear layers and return
      X b l c + ∑ m, softmax over the batch axis of (P b l · Q b m) · O b m c,      P, Q, O the three projections of X
  (`Cert.NonLocal.result`, Proof/Spec.lean). The reference computes it in twenty-nine whole-array operations
  (Proof/RefBridge.lean). The kernel computes it in two regions: sixteen row blocks of the flattened input each
  multiplied by the three weight matrices (Proof/Projections.lean), then, for each block of 128 positions, sixteen
  chunks of 128 positions whose weighted values are added one after another into an accumulator that starts at zero,
  the residual added last (Proof/AttnLoop.lean, Proof/AttnBlock.lean, Proof/AttnArray.lean). At the extended reals a
  change of float format is the identity, a matrix-unit product into a zero accumulator is the plain sum over the
  contracted axis, and the two arrangements of the sum over the 2048 positions differ only by the grouping and order of
  a finite sum and by `0 + x = x`; the maximum the reference takes once more with `-∞` changes nothing. No finiteness of
  the inputs is needed for any of it, so the precondition is never opened.
  The three frames are the generated ones; the idealization rewrote no operation, so it is preserved trivially.
-/
import proofs.«149326_j8409545965719_2_alg».proof.Defs
import proofs.«149326_j8409545965719_2_alg».proof.Proof.Gen.Kernel.Frame
import proofs.«149326_j8409545965719_2_alg».proof.Proof.Gen.KernelIdeal.Frame
import proofs.«149326_j8409545965719_2_alg».proof.Proof.Gen.ReferenceIdeal.Run
import proofs.«149326_j8409545965719_2_alg».proof.Proof.Gen.ReferenceIdeal.Read
import proofs.«149326_j8409545965719_2_alg».proof.Proof.Gen.Pre_finite_inputs
import proofs.«149326_j8409545965719_2_alg».proof.Proof.Spec
import proofs.«149326_j8409545965719_2_alg».proof.Proof.RefBridge
import proofs.«149326_j8409545965719_2_alg».proof.Proof.KernelRun
import proofs.«149326_j8409545965719_2_alg».proof.Proof.AttnArray
import proofs.«149326_j8409545965719_2_alg».proof.Proof.Projections

set_option maxRecDepth 16384

noncomputable section

open Idealize.ShloMosaic Idealize.ShloMosaic.TcCoe Idealize.SL.Sem

namespace Cert.Proof

open Cert.NonLocal

/-- The kernel, run at the extended reals, ends with its result array at the block's function of the launch arrays:
    the second region's write-backs leave `attend` of what it finds on entry, and on entry it finds the three
    projections (the first region's outputs, reshaped) and the inputs themselves. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (F := Ideal) (Cert.KernelIdeal.Gen.V3 m ρ) c).arrAt 4 Cert.KernelIdeal.cfg1.N
      = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  rw [Cert.NonLocal.Arr.region1_array, Cert.NonLocal.Proj.entry_P, Cert.NonLocal.Proj.entry_Q, Cert.NonLocal.Proj.entry_O,
    Cert.NonLocal.Proj.entry_X]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both programs, run at the extended reals from memories that agree on the seven arguments, end with their result
    arrays at ONE function of those arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_result m ρ c), (h c).2⟩)
      (Cert.NonLocal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.NonLocal.Ref.reference_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
